-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x7168 : Shape := ⟨2, ![8192, 7168]⟩
abbrev S2112x7168 : Shape := ⟨2, ![2112, 7168]⟩
abbrev S2112 : Shape := ⟨1, ![2112]⟩
abbrev S128x7168 : Shape := ⟨2, ![128, 7168]⟩
abbrev S2x1536x64 : Shape := ⟨3, ![2, 1536, 64]⟩
abbrev S_ : Shape := ⟨0, ![]⟩

class Facts : Prop where
  bcast_S_S8192x7168 : S_.BroadcastsInDim S8192x7168 (![] : Fin 0 → Fin S8192x7168.rank)
  reducesTo_S8192x7168_S_d0_1 : S8192x7168.ReducesTo [0, 1] S_
  h_S_ : 0 < S_.numel
  bcast_S_S2112x7168 : S_.BroadcastsInDim S2112x7168 (![] : Fin 0 → Fin S2112x7168.rank)
  reducesTo_S2112x7168_S_d0_1 : S2112x7168.ReducesTo [0, 1] S_
  bcast_S_S2112 : S_.BroadcastsInDim S2112 (![] : Fin 0 → Fin S2112.rank)
  reducesTo_S2112_S_d0 : S2112.ReducesTo [0] S_
  bcast_S_S128x7168 : S_.BroadcastsInDim S128x7168 (![] : Fin 0 → Fin S128x7168.rank)
  reducesTo_S128x7168_S_d0_1 : S128x7168.ReducesTo [0, 1] S_
  bcast_S_S2x1536x64 : S_.BroadcastsInDim S2x1536x64 (![] : Fin 0 → Fin S2x1536x64.rank)
  reducesTo_S2x1536x64_S_d0_1_2 : S2x1536x64.ReducesTo [0, 1, 2] S_

variable [Facts]

def fn_part1 {F : FTy → Type} [FloatOps F] (main_arg4 : FVec F S2x1536x64 .f32) (main_v13 : IVec S_ 1) (main_v16 : IVec S128x7168 1) : IVec S_ 1 :=
  let main_c_5 : IVec S_ 1 := constantI S_ 1 1#1
  let main_v17 : IVec S_ 1 := (fun x v => Host.reduce IntOp.andi x v reducesTo_S128x7168_S_d0_1 h_S_) main_v16 main_c_5
  let main_v18 : IVec S_ 1 := andi main_v13 main_v17
  let main_v19 : FVec F S2x1536x64 .f32 := Host.absf main_arg4
  let main_cst_6 : FVec F S_ .f32 := constant S_ .f32 0x7F800000#32
  let main_v20 : FVec F S2x1536x64 .f32 := broadcastInDim S2x1536x64 ![] bcast_S_S2x1536x64 main_cst_6
  let main_v21 : IVec S2x1536x64 1 := cmpf .olt main_v19 main_v20
  let main_c_7 : IVec S_ 1 := constantI S_ 1 1#1
  let main_v22 : IVec S_ 1 := (fun x v => Host.reduce IntOp.andi x v reducesTo_S2x1536x64_S_d0_1_2 h_S_) main_v21 main_c_7
  let main_v23 : IVec S_ 1 := andi main_v18 main_v22
  main_v23

def fn {F : FTy → Type} [FloatOps F] (main_arg0 : FVec F S8192x7168 .f32) (main_arg1 : FVec F S2112x7168 .f32) (main_arg2 : FVec F S2112 .f32) (main_arg3 : FVec F S128x7168 .f32) (main_arg4 : FVec F S2x1536x64 .f32) : IVec S_ 1 :=
  let main_v0 : FVec F S8192x7168 .f32 := Host.absf main_arg0
  let main_cst : FVec F S_ .f32 := constant S_ .f32 0x7F800000#32
  let main_v1 : FVec F S8192x7168 .f32 := broadcastInDim S8192x7168 ![] bcast_S_S8192x7168 main_cst
  let main_v2 : IVec S8192x7168 1 := cmpf .olt main_v0 main_v1
  let main_c : IVec S_ 1 := constantI S_ 1 1#1
  let main_v3 : IVec S_ 1 := (fun x v => Host.reduce IntOp.andi x v reducesTo_S8192x7168_S_d0_1 h_S_) main_v2 main_c
  let main_v4 : FVec F S2112x7168 .f32 := Host.absf main_arg1
  let main_cst_0 : FVec F S_ .f32 := constant S_ .f32 0x7F800000#32
  let main_v5 : FVec F S2112x7168 .f32 := broadcastInDim S2112x7168 ![] bcast_S_S2112x7168 main_cst_0
  let main_v6 : IVec S2112x7168 1 := cmpf .olt main_v4 main_v5
  let main_c_1 : IVec S_ 1 := constantI S_ 1 1#1
  let main_v7 : IVec S_ 1 := (fun x v => Host.reduce IntOp.andi x v reducesTo_S2112x7168_S_d0_1 h_S_) main_v6 main_c_1
  let main_v8 : IVec S_ 1 := andi main_v3 main_v7
  let main_v9 : FVec F S2112 .f32 := Host.absf main_arg2
  let main_cst_2 : FVec F S_ .f32 := constant S_ .f32 0x7F800000#32
  let main_v10 : FVec F S2112 .f32 := broadcastInDim S2112 ![] bcast_S_S2112 main_cst_2
  let main_v11 : IVec S2112 1 := cmpf .olt main_v9 main_v10
  let main_c_3 : IVec S_ 1 := constantI S_ 1 1#1
  let main_v12 : IVec S_ 1 := (fun x v => Host.reduce IntOp.andi x v reducesTo_S2112_S_d0 h_S_) main_v11 main_c_3
  let main_v13 : IVec S_ 1 := andi main_v8 main_v12
  let main_v14 : FVec F S128x7168 .f32 := Host.absf main_arg3
  let main_cst_4 : FVec F S_ .f32 := constant S_ .f32 0x7F800000#32
  let main_v15 : FVec F S128x7168 .f32 := broadcastInDim S128x7168 ![] bcast_S_S128x7168 main_cst_4
  let main_v16 : IVec S128x7168 1 := cmpf .olt main_v14 main_v15
  fn_part1 (F := F) main_arg4 main_v13 main_v16
-- ==== Kernel.lean ====
abbrev S8192x7168 : Shape := ⟨2, ![8192, 7168]⟩
abbrev S2112x7168 : Shape := ⟨2, ![2112, 7168]⟩
abbrev S2112 : Shape := ⟨1, ![2112]⟩
abbrev S128x7168 : Shape := ⟨2, ![128, 7168]⟩
abbrev S2x1536x64 : Shape := ⟨3, ![2, 1536, 64]⟩
abbrev S1x2112 : Shape := ⟨2, ![1, 2112]⟩
abbrev S1x1536x64 : Shape := ⟨3, ![1, 1536, 64]⟩
abbrev S1536x64 : Shape := ⟨2, ![1536, 64]⟩
abbrev S1x576x64 : Shape := ⟨3, ![1, 576, 64]⟩
abbrev S576x64 : Shape := ⟨2, ![576, 64]⟩
abbrev S64x1536 : Shape := ⟨2, ![64, 1536]⟩
abbrev S64x576 : Shape := ⟨2, ![64, 576]⟩
abbrev S8192x2112 : Shape := ⟨2, ![8192, 2112]⟩
abbrev S512x512 : Shape := ⟨2, ![512, 512]⟩
abbrev S2112x512 : Shape := ⟨2, ![2112, 512]⟩
abbrev S128x512 : Shape := ⟨2, ![128, 512]⟩
abbrev S512x2112 : Shape := ⟨2, ![512, 2112]⟩
abbrev S512x128 : Shape := ⟨2, ![512, 128]⟩
abbrev S512x64 : Shape := ⟨2, ![512, 64]⟩
abbrev S512x1536 : Shape := ⟨2, ![512, 1536]⟩
abbrev S512x576 : Shape := ⟨2, ![512, 576]⟩

abbrev nBuf : Space → Nat
  | .hbm => 15
  | .vmem => 13
  | .smem => 0
  | _ => 0

abbrev bufTy : (tb : Table) → Fin (tcTables nBuf tb) → BufTy
  | .hbm, ⟨0, _⟩ => ⟨S8192x7168, .f32⟩
  | .hbm, ⟨1, _⟩ => ⟨S2112x7168, .f32⟩
  | .hbm, ⟨2, _⟩ => ⟨S2112, .f32⟩
  | .hbm, ⟨3, _⟩ => ⟨S128x7168, .f32⟩
  | .hbm, ⟨4, _⟩ => ⟨S2x1536x64, .f32⟩
  | .hbm, ⟨5, _⟩ => ⟨S2112x7168, .bf16⟩
  | .hbm, ⟨6, _⟩ => ⟨S128x7168, .bf16⟩
  | .hbm, ⟨7, _⟩ => ⟨S1x2112, .f32⟩
  | .hbm, ⟨8, _⟩ => ⟨S1x1536x64, .f32⟩
  | .hbm, ⟨9, _⟩ => ⟨S1536x64, .f32⟩
  | .hbm, ⟨10, _⟩ => ⟨S1x576x64, .f32⟩
  | .hbm, ⟨11, _⟩ => ⟨S576x64, .f32⟩
  | .hbm, ⟨12, _⟩ => ⟨S64x1536, .f32⟩
  | .hbm, ⟨13, _⟩ => ⟨S64x576, .f32⟩
  | .hbm, ⟨14, _⟩ => ⟨S8192x2112, .f32⟩
  | .local _ .vmem, ⟨0, _⟩ => ⟨S512x512, .f32⟩
  | .local _ .vmem, ⟨1, _⟩ => ⟨S512x512, .f32⟩
  | .local _ .vmem, ⟨2, _⟩ => ⟨S2112x512, .bf16⟩
  | .local _ .vmem, ⟨3, _⟩ => ⟨S2112x512, .bf16⟩
  | .local _ .vmem, ⟨4, _⟩ => ⟨S128x512, .bf16⟩
  | .local _ .vmem, ⟨5, _⟩ => ⟨S128x512, .bf16⟩
  | .local _ .vmem, ⟨6, _⟩ => ⟨S1x2112, .f32⟩
  | .local _ .vmem, ⟨7, _⟩ => ⟨S64x1536, .f32⟩
  | .local _ .vmem, ⟨8, _⟩ => ⟨S64x576, .f32⟩
  | .local _ .vmem, ⟨9, _⟩ => ⟨S512x2112, .f32⟩
  | .local _ .vmem, ⟨10, _⟩ => ⟨S512x2112, .f32⟩
  | .local _ .vmem, ⟨11, _⟩ => ⟨S512x2112, .f32⟩
  | .local _ .vmem, ⟨12, _⟩ => ⟨S512x128, .f32⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 14], ![false, false]⟩

def k0_cond2 (i : grid0.Coords) : BitVec 1 :=
  let arg1 : BitVec 32 := BitVec.ofNat 32 (i 1).val
  let c13_i32 : BitVec 32 := 13#32
  let v21 : BitVec 1 := Scalar.cmpi .eq arg1 c13_i32
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2112x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2112 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x576 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2112 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bitsLt_bf16_f32 : FTy.bits .bf16 < FTy.bits .f32
  shapeCasts_S2112_S1x2112 : S2112.ShapeCasts S1x2112
  slices_S2x1536x64_S1x1536x64_0_0_0 : S2x1536x64.Slices ![0, 0, 0] S1x1536x64
  shapeCasts_S1x1536x64_S1536x64 : S1x1536x64.ShapeCasts S1536x64
  slices_S2x1536x64_S1x576x64_1_0_0 : S2x1536x64.Slices ![1, 0, 0] S1x576x64
  shapeCasts_S1x576x64_S576x64 : S1x576x64.ShapeCasts S576x64
  transposes_S1536x64_S64x1536_1_0 : S1536x64.Transposes [1, 0] S64x1536
  transposes_S576x64_S64x576_1_0 : S576x64.Transposes [1, 0] S64x576
  inb_S1x2112_S1x2112_0_0 : ∀ a, (![0, 0] : Fin 2 → Nat) a + S1x2112.size a ≤ S1x2112.size a
  h_S1x2112 : 0 < S1x2112.numel
  shapeCasts_S1x2112_S1x2112 : S1x2112.ShapeCasts S1x2112
  broadcasts_S1x2112_S512x2112 : S1x2112.Broadcasts S512x2112
  inb_S512x2112_S512x2112_0_0 : ∀ a, (![0, 0] : Fin 2 → Nat) a + S512x2112.size a ≤ S512x2112.size a
  h_S512x2112 : 0 < S512x2112.numel
  shapeCasts_S512x2112_S512x2112 : S512x2112.ShapeCasts S512x2112
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x512_S512x512_0_0 : ∀ a, (![0, 0] : Fin 2 → Nat) a + S512x512.size a ≤ S512x512.size a
  h_S512x512 : 0 < S512x512.numel
  inb_S2112x512_S2112x512_0_0 : ∀ a, (![0, 0] : Fin 2 → Nat) a + S2112x512.size a ≤ S2112x512.size a
  h_S2112x512 : 0 < S2112x512.numel
  shapeCasts_S2112x512_S2112x512 : S2112x512.ShapeCasts S2112x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  slices_S512x128_o0_0_S512x64 : S512x128.Slices ![0, 0] S512x64
  slices_S512x128_o0_64_S512x64 : S512x128.Slices ![0, 64] S512x64
  inb_S64x1536_S64x1536_0_0 : ∀ a, (![0, 0] : Fin 2 → Nat) a + S64x1536.size a ≤ S64x1536.size a
  h_S64x1536 : 0 < S64x1536.numel
  shapeCasts_S64x1536_S64x1536 : S64x1536.ShapeCasts S64x1536
  inb_S64x576_S64x576_0_0 : ∀ a, (![0, 0] : Fin 2 → Nat) a + S64x576.size a ≤ S64x576.size a
  h_S64x576 : 0 < S64x576.numel
  shapeCasts_S64x576_S64x576 : S64x576.ShapeCasts S64x576
  inb_S512x2112_S512x1536_0_0 : ∀ a, (![0, 0] : Fin 2 → Nat) a + S512x1536.size a ≤ S512x2112.size a
  h_S512x1536 : 0 < S512x1536.numel
  inb_S512x2112_S512x576_0_1536 : ∀ a, (![0, 1536] : Fin 2 → Nat) a + S512x576.size a ≤ S512x2112.size a
  h_S512x576 : 0 < S512x576.numel
  dot_S512x512_S2112x512_S512x2112_1_1_0_0_n_n_wf : DotDims.WF S512x512 S2112x512 S512x2112 [1] [1] [0] [0] [] []
  dot_S512x512_S128x512_S512x128_1_1_0_0_n_n_wf : DotDims.WF S512x512 S128x512 S512x128 [1] [1] [0] [0] [] []
  dot_S512x64_S64x1536_S512x1536_1_0_0_1_n_n_wf : DotDims.WF S512x64 S64x1536 S512x1536 [1] [0] [0] [1] [] []
  dot_S512x64_S64x576_S512x576_1_0_0_1_n_n_wf : DotDims.WF S512x64 S64x576 S512x576 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x7168.size a
  hwx0_0 : ∀ i : grid0.Coords, EltTy.bits .f32 = 32 ∨ (Rect.block (s := S8192x7168) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2112x512.size a ≤ S2112x7168.size a
  hwx0_1 : ∀ i : grid0.Coords, EltTy.bits .bf16 = 32 ∨ (Rect.block (s := S2112x7168) S2112x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x7168.size a
  hwx0_2 : ∀ i : grid0.Coords, EltTy.bits .bf16 = 32 ∨ (Rect.block (s := S128x7168) S128x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2112.size a ≤ S1x2112.size a
  hwx0_3 : ∀ i : grid0.Coords, EltTy.bits .f32 = 32 ∨ (Rect.block (s := S1x2112) S1x2112.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1536.size a ≤ S64x1536.size a
  hwx0_4 : ∀ i : grid0.Coords, EltTy.bits .f32 = 32 ∨ (Rect.block (s := S64x1536) S64x1536.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x576.size a ≤ S64x576.size a
  hwx0_5 : ∀ i : grid0.Coords, EltTy.bits .f32 = 32 ∨ (Rect.block (s := S64x576) S64x576.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x2112.size a ≤ S8192x2112.size a
  hwx0_6 : ∀ i : grid0.Coords, EltTy.bits .f32 = 32 ∨ (Rect.block (s := S8192x2112) S512x2112.size (cc0_transform_6 i) (hinb0_6 i)).WholeWords (EltTy.packing .f32)

variable [Facts₀]

def dot_S512x512_S2112x512_S512x2112_1_1_0_0_n_n : DotDims S512x512 S2112x512 S512x2112 where
  lhsContracting := [1]
  rhsContracting := [1]
  lhsNonContracting := [0]
  rhsNonContracting := [0]
  lhsBatch := []
  rhsBatch := []
  wf := dot_S512x512_S2112x512_S512x2112_1_1_0_0_n_n_wf
def dot_S512x512_S128x512_S512x128_1_1_0_0_n_n : DotDims S512x512 S128x512 S512x128 where
  lhsContracting := [1]
  rhsContracting := [1]
  lhsNonContracting := [0]
  rhsNonContracting := [0]
  lhsBatch := []
  rhsBatch := []
  wf := dot_S512x512_S128x512_S512x128_1_1_0_0_n_n_wf
def dot_S512x64_S64x1536_S512x1536_1_0_0_1_n_n : DotDims S512x64 S64x1536 S512x1536 where
  lhsContracting := [1]
  rhsContracting := [0]
  lhsNonContracting := [0]
  rhsNonContracting := [1]
  lhsBatch := []
  rhsBatch := []
  wf := dot_S512x64_S64x1536_S512x1536_1_0_0_1_n_n_wf
def dot_S512x64_S64x576_S512x576_1_0_0_1_n_n : DotDims S512x64 S64x576 S512x576 where
  lhsContracting := [1]
  rhsContracting := [0]
  lhsNonContracting := [0]
  rhsNonContracting := [1]
  lhsBatch := []
  rhsBatch := []
  wf := dot_S512x64_S64x576_S512x576_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2112x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x2112.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S64x1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S64x576.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S512x2112.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8192x7168 : Shape := ⟨2, ![8192, 7168]⟩
abbrev S2112x7168 : Shape := ⟨2, ![2112, 7168]⟩
abbrev S2112 : Shape := ⟨1, ![2112]⟩
abbrev S128x7168 : Shape := ⟨2, ![128, 7168]⟩
abbrev S2x1536x64 : Shape := ⟨3, ![2, 1536, 64]⟩
abbrev S8192x2112 : Shape := ⟨2, ![8192, 2112]⟩
abbrev S1x2112 : Shape := ⟨2, ![1, 2112]⟩
abbrev S8192x128 : Shape := ⟨2, ![8192, 128]⟩
abbrev S8192x64 : Shape := ⟨2, ![8192, 64]⟩
abbrev S1x1536x64 : Shape := ⟨3, ![1, 1536, 64]⟩
abbrev S1536x64 : Shape := ⟨2, ![1536, 64]⟩
abbrev S8192x1536 : Shape := ⟨2, ![8192, 1536]⟩
abbrev S_ : Shape := ⟨0, ![]⟩
abbrev S1 : Shape := ⟨1, ![1]⟩
abbrev S1x576x64 : Shape := ⟨3, ![1, 576, 64]⟩
abbrev S576x64 : Shape := ⟨2, ![576, 64]⟩
abbrev S8192x576 : Shape := ⟨2, ![8192, 576]⟩

abbrev nBuf : Space → Nat
  | .hbm => 24
  | .vmem => 0
  | .smem => 0
  | _ => 0

abbrev bufTy : (tb : Table) → Fin (tcTables nBuf tb) → BufTy
  | .hbm, ⟨0, _⟩ => ⟨S8192x7168, .f32⟩
  | .hbm, ⟨1, _⟩ => ⟨S2112x7168, .f32⟩
  | .hbm, ⟨2, _⟩ => ⟨S2112, .f32⟩
  | .hbm, ⟨3, _⟩ => ⟨S128x7168, .f32⟩
  | .hbm, ⟨4, _⟩ => ⟨S2x1536x64, .f32⟩
  | .hbm, ⟨5, _⟩ => ⟨S8192x2112, .f32⟩
  | .hbm, ⟨6, _⟩ => ⟨S1x2112, .f32⟩
  | .hbm, ⟨7, _⟩ => ⟨S8192x2112, .f32⟩
  | .hbm, ⟨8, _⟩ => ⟨S8192x2112, .f32⟩
  | .hbm, ⟨9, _⟩ => ⟨S8192x128, .f32⟩
  | .hbm, ⟨10, _⟩ => ⟨S8192x64, .f32⟩
  | .hbm, ⟨11, _⟩ => ⟨S1x1536x64, .f32⟩
  | .hbm, ⟨12, _⟩ => ⟨S1536x64, .f32⟩
  | .hbm, ⟨13, _⟩ => ⟨S8192x1536, .f32⟩
  | .hbm, ⟨14, _⟩ => ⟨S_, .i32⟩
  | .hbm, ⟨15, _⟩ => ⟨S1, .i32⟩
  | .hbm, ⟨16, _⟩ => ⟨S8192x2112, .f32⟩
  | .hbm, ⟨17, _⟩ => ⟨S8192x64, .f32⟩
  | .hbm, ⟨18, _⟩ => ⟨S1x576x64, .f32⟩
  | .hbm, ⟨19, _⟩ => ⟨S576x64, .f32⟩
  | .hbm, ⟨20, _⟩ => ⟨S8192x576, .f32⟩
  | .hbm, ⟨21, _⟩ => ⟨S_, .i32⟩
  | .hbm, ⟨22, _⟩ => ⟨S1, .i32⟩
  | .hbm, ⟨23, _⟩ => ⟨S8192x2112, .f32⟩
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  bcast_S2112_S1x2112_1 : S2112.BroadcastsInDim S1x2112 (![1] : Fin 1 → Fin S1x2112.rank)
  bcast_S1x2112_S8192x2112_0_1 : S1x2112.BroadcastsInDim S8192x2112 (![0, 1] : Fin 2 → Fin S8192x2112.rank)
  slices_S8192x128_S8192x64_0_0 : S8192x128.Slices ![0, 0] S8192x64
  slices_S2x1536x64_S1x1536x64_0_0_0 : S2x1536x64.Slices ![0, 0, 0] S1x1536x64
  shapeCasts_S1x1536x64_S1536x64 : S1x1536x64.ShapeCasts S1536x64
  bcast_S_S1 : S_.BroadcastsInDim S1 (![] : Fin 0 → Fin S1.rank)
  slices_S8192x128_S8192x64_0_64 : S8192x128.Slices ![0, 64] S8192x64
  slices_S2x1536x64_S1x576x64_1_0_0 : S2x1536x64.Slices ![1, 0, 0] S1x576x64
  shapeCasts_S1x576x64_S576x64 : S1x576x64.ShapeCasts S576x64
  dot_S8192x7168_S2112x7168_S8192x2112_1_1_0_0_n_n_wf : DotDims.WF S8192x7168 S2112x7168 S8192x2112 [1] [1] [0] [0] [] []
  dot_S8192x7168_S128x7168_S8192x128_1_1_0_0_n_n_wf : DotDims.WF S8192x7168 S128x7168 S8192x128 [1] [1] [0] [0] [] []
  dot_S8192x64_S1536x64_S8192x1536_1_1_0_0_n_n_wf : DotDims.WF S8192x64 S1536x64 S8192x1536 [1] [1] [0] [0] [] []
  scatter_S8192x2112_S1_S8192x1536_01_n_1_0_wf : ScatterDims.WF S8192x2112 S1 S8192x1536 [0, 1] [] [1] 0
  dot_S8192x64_S576x64_S8192x576_1_1_0_0_n_n_wf : DotDims.WF S8192x64 S576x64 S8192x576 [1] [1] [0] [0] [] []
  scatter_S8192x2112_S1_S8192x576_01_n_1_0_wf : ScatterDims.WF S8192x2112 S1 S8192x576 [0, 1] [] [1] 0

variable [Facts₀]

def dot_S8192x7168_S2112x7168_S8192x2112_1_1_0_0_n_n : DotDims S8192x7168 S2112x7168 S8192x2112 where
  lhsContracting := [1]
  rhsContracting := [1]
  lhsNonContracting := [0]
  rhsNonContracting := [0]
  lhsBatch := []
  rhsBatch := []
  wf := dot_S8192x7168_S2112x7168_S8192x2112_1_1_0_0_n_n_wf
def dot_S8192x7168_S128x7168_S8192x128_1_1_0_0_n_n : DotDims S8192x7168 S128x7168 S8192x128 where
  lhsContracting := [1]
  rhsContracting := [1]
  lhsNonContracting := [0]
  rhsNonContracting := [0]
  lhsBatch := []
  rhsBatch := []
  wf := dot_S8192x7168_S128x7168_S8192x128_1_1_0_0_n_n_wf
def dot_S8192x64_S1536x64_S8192x1536_1_1_0_0_n_n : DotDims S8192x64 S1536x64 S8192x1536 where
  lhsContracting := [1]
  rhsContracting := [1]
  lhsNonContracting := [0]
  rhsNonContracting := [0]
  lhsBatch := []
  rhsBatch := []
  wf := dot_S8192x64_S1536x64_S8192x1536_1_1_0_0_n_n_wf
def scatter_S8192x2112_S1_S8192x1536_01_n_1_0 : ScatterDims S8192x2112 S1 S8192x1536 where
  updateWindowDims := [0, 1]
  insertedWindowDims := []
  scatterDimsToOperandDims := [1]
  indexVectorDim := 0
  wf := scatter_S8192x2112_S1_S8192x1536_01_n_1_0_wf
def dot_S8192x64_S576x64_S8192x576_1_1_0_0_n_n : DotDims S8192x64 S576x64 S8192x576 where
  lhsContracting := [1]
  rhsContracting := [1]
  lhsNonContracting := [0]
  rhsNonContracting := [0]
  lhsBatch := []
  rhsBatch := []
  wf := dot_S8192x64_S576x64_S8192x576_1_1_0_0_n_n_wf
def scatter_S8192x2112_S1_S8192x576_01_n_1_0 : ScatterDims S8192x2112 S1 S8192x576 where
  updateWindowDims := [0, 1]
  insertedWindowDims := []
  scatterDimsToOperandDims := [1]
  indexVectorDim := 0
  wf := scatter_S8192x2112_S1_S8192x576_01_n_1_0_wf

class Facts : Prop extends Facts₀ where

variable [Facts]
-- ==== Proof.Pieces.lean ====
/-
  What the body leaves at one grid point, in each of its three cases.

  A point (i, k) of the 16 × 14 grid handles row block i and reduction block k.  The body keeps two running
  sums between points, a wide one [512, 2112] for the main product and a narrow one [512, 128] for the
  low-rank product:
    * at k = 0 it first stores the bias row, repeated over the 512 rows, into the wide sum and zeros into the narrow
      one, and then adds this block's products to both;
    * at 0 < k < 13 it adds this block's products to what the point before left;
    * at k = 13 it does the same and then, from the two finished sums, fills the output block through two
      rectangles: columns [0, 1536) and columns [1536, 2112), each the matching columns of the wide sum plus the
      narrow sum's matching half multiplied into a [64, ·] factor.
  Each statement below says which pure function of the point's input blocks (and of what the point before left)
  a buffer ends up holding.  The stores that cover a buffer whole leave their payload; a store read back through a
  rectangle is that rectangle of the payload.
-/
import proofs.«139467_j79800492359938_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- A buffer filled by one whole store and then read through any rectangle shows that rectangle of the payload. -/
theorem readCov_whole {S : Shape} {e : EltTy} {sig : RefSig} {κ : Kind} {sp : Space} (v : View sig κ sp S e)
    {off : Fin S.rank → Nat} (h : off = fun _ => 0) (inb : ∀ a, off a + S.size a ≤ S.size a) (w : S.Idx → Elt F e)
    (r : Rect S) :
    v.readCov [(⟨Rect.unit off S.size inb, w⟩ : View.Piece (Elt F) S e)] r.toLoadRect = View.ld w r := by
  rw [View.readCov_eq_canon_ld _ _ _ (fun y => ⟨_, List.mem_singleton_self _, View.mem_set_unit_zero h inb y⟩),
    View.canon_unit_zero h]

/-- The two stores that fill the output block at the last reduction step, from the finished wide sum `s0`, the
    finished narrow sum `s1` and the two [64, ·] factors: columns [1536, 2112) (stored last), then columns [0, 1536). -/
def lastStores (s0 : Vec F S512x2112 .f32) (s1 : Vec F S512x128 .f32) (b0 : Vec F S64x1536 .f32)
    (b1 : Vec F S64x576 .f32) : List (View.Piece (Elt F) S512x2112 .f32) :=
  [⟨Rect.unit ![0, 1536] ![512, 576] inb_S512x2112_S512x576_0_1536,
      k0_pay8 s1 b1 (View.ld s0 (Rect.unit ![0, 1536] S512x576.size inb_S512x2112_S512x576_0_1536))⟩,
   ⟨Rect.unit ![0, 0] ![512, 1536] inb_S512x2112_S512x1536_0_0,
      k0_pay7 s1 b0 (View.ld s0 (Rect.unit ![0, 0] S512x1536.size inb_S512x2112_S512x1536_0_0))⟩]

/-- First reduction step, wide sum: the bias rows plus this block's main product. -/
theorem first_wide (c : Dev nD) (i : grid0.Coords) (arg2 : Memref sig .tc .vmem S512x512 .f32) (harg2 : arg2.IsWhole) (arg3 : Memref sig .tc .vmem S2112x512 .bf16) (harg3 : arg3.IsWhole) (arg4 : Memref sig .tc .vmem S128x512 .bf16) (harg4 : arg4.IsWhole) (arg5 : Memref sig .tc .vmem S1x2112 .f32) (harg5 : arg5.IsWhole) (arg6 : Memref sig .tc .vmem S64x1536 .f32) (harg6 : arg6.IsWhole) (arg7 : Memref sig .tc .vmem S64x576 .f32) (harg7 : arg7.IsWhole) (arg8 : Memref sig .tc .vmem S512x2112 .f32) (harg8 : arg8.IsWhole) (arg9 : Memref sig .tc .vmem S512x2112 .f32) (harg9 : arg9.IsWhole) (arg10 : Memref sig .tc .vmem S512x128 .f32) (harg10 : arg10.IsWhole) (hc0 : cond0_0 i) (hc1 : ¬cond0_1 i) (x0 : Vec F S512x512 .f32) (x1 : Vec F S2112x512 .bf16) (x2 : Vec F S128x512 .bf16) (x3 : Vec F S1x2112 .f32) (x4 : Vec F S64x1536 .f32) (x5 : Vec F S64x576 .f32) :
    sout0_A_0 c i arg2 harg2 arg3 harg3 arg4 harg4 arg5 harg5 arg6 harg6 arg7 harg7 arg8 harg8 arg9 harg9 arg10 harg10 hc0 hc1 x0 x1 x2 x3 x4 x5 = k0_pay4 x0 x1 (k0_pay1 x3) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S512x2112) hz, View.readCov_unit_zero (S := S512x2112) _ hz]
  simp only [View.readAt_eq_ld, harg2.read_unread, harg3.read_unread, harg5.read_unread,
    View.ld_unit_zero (S := S512x512) hz, View.ld_unit_zero (S := S2112x512) hz, View.ld_unit_zero (S := S1x2112) hz]

/-- First reduction step, narrow sum: zeros plus this block's low-rank product. -/
theorem first_narrow (c : Dev nD) (i : grid0.Coords) (arg2 : Memref sig .tc .vmem S512x512 .f32) (harg2 : arg2.IsWhole) (arg3 : Memref sig .tc .vmem S2112x512 .bf16) (harg3 : arg3.IsWhole) (arg4 : Memref sig .tc .vmem S128x512 .bf16) (harg4 : arg4.IsWhole) (arg5 : Memref sig .tc .vmem S1x2112 .f32) (harg5 : arg5.IsWhole) (arg6 : Memref sig .tc .vmem S64x1536 .f32) (harg6 : arg6.IsWhole) (arg7 : Memref sig .tc .vmem S64x576 .f32) (harg7 : arg7.IsWhole) (arg8 : Memref sig .tc .vmem S512x2112 .f32) (harg8 : arg8.IsWhole) (arg9 : Memref sig .tc .vmem S512x2112 .f32) (harg9 : arg9.IsWhole) (arg10 : Memref sig .tc .vmem S512x128 .f32) (harg10 : arg10.IsWhole) (hc0 : cond0_0 i) (hc1 : ¬cond0_1 i) (x0 : Vec F S512x512 .f32) (x1 : Vec F S2112x512 .bf16) (x2 : Vec F S128x512 .bf16) (x3 : Vec F S1x2112 .f32) (x4 : Vec F S64x1536 .f32) (x5 : Vec F S64x576 .f32) :
    sout0_A_1 c i arg2 harg2 arg3 harg3 arg4 harg4 arg5 harg5 arg6 harg6 arg7 harg7 arg8 harg8 arg9 harg9 arg10 harg10 hc0 hc1 x0 x1 x2 x3 x4 x5 = k0_pay5 x0 x2 (k0_pay2 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S512x128) hz, View.readCov_unit_zero (S := S512x128) _ hz]
  simp only [View.readAt_eq_ld, harg2.read_unread, harg4.read_unread,
    View.ld_unit_zero (S := S512x512) hz, View.ld_unit_zero (S := S128x512) hz]

/-- A middle reduction step, wide sum: what the point before left plus this block's main product. -/
theorem mid_wide (c : Dev nD) (i : grid0.Coords) (arg2 : Memref sig .tc .vmem S512x512 .f32) (harg2 : arg2.IsWhole) (arg3 : Memref sig .tc .vmem S2112x512 .bf16) (harg3 : arg3.IsWhole) (arg4 : Memref sig .tc .vmem S128x512 .bf16) (harg4 : arg4.IsWhole) (arg5 : Memref sig .tc .vmem S1x2112 .f32) (harg5 : arg5.IsWhole) (arg6 : Memref sig .tc .vmem S64x1536 .f32) (harg6 : arg6.IsWhole) (arg7 : Memref sig .tc .vmem S64x576 .f32) (harg7 : arg7.IsWhole) (arg8 : Memref sig .tc .vmem S512x2112 .f32) (harg8 : arg8.IsWhole) (arg9 : Memref sig .tc .vmem S512x2112 .f32) (harg9 : arg9.IsWhole) (arg10 : Memref sig .tc .vmem S512x128 .f32) (harg10 : arg10.IsWhole) (hc0 : ¬cond0_0 i) (hc1 : ¬cond0_1 i) (x0 : Vec F S512x512 .f32) (x1 : Vec F S2112x512 .bf16) (x2 : Vec F S128x512 .bf16) (x3 : Vec F S1x2112 .f32) (x4 : Vec F S64x1536 .f32) (x5 : Vec F S64x576 .f32) (xs0 : Vec F S512x2112 .f32) (xs1 : Vec F S512x128 .f32) :
    sout0_B_0 c i arg2 harg2 arg3 harg3 arg4 harg4 arg5 harg5 arg6 harg6 arg7 harg7 arg8 harg8 arg9 harg9 arg10 harg10 hc0 hc1 x0 x1 x2 x3 x4 x5 xs0 xs1 = k0_pay4 x0 x1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  rw [View.canon_unit_zero hz]
  simp only [View.readAt_eq_ld, harg2.read_unread, harg3.read_unread, harg9.read_unread,
    View.ld_unit_zero (S := S512x512) hz, View.ld_unit_zero (S := S2112x512) hz, View.ld_unit_zero (S := S512x2112) hz]

/-- A middle reduction step, narrow sum. -/
theorem mid_narrow (c : Dev nD) (i : grid0.Coords) (arg2 : Memref sig .tc .vmem S512x512 .f32) (harg2 : arg2.IsWhole) (arg3 : Memref sig .tc .vmem S2112x512 .bf16) (harg3 : arg3.IsWhole) (arg4 : Memref sig .tc .vmem S128x512 .bf16) (harg4 : arg4.IsWhole) (arg5 : Memref sig .tc .vmem S1x2112 .f32) (harg5 : arg5.IsWhole) (arg6 : Memref sig .tc .vmem S64x1536 .f32) (harg6 : arg6.IsWhole) (arg7 : Memref sig .tc .vmem S64x576 .f32) (harg7 : arg7.IsWhole) (arg8 : Memref sig .tc .vmem S512x2112 .f32) (harg8 : arg8.IsWhole) (arg9 : Memref sig .tc .vmem S512x2112 .f32) (harg9 : arg9.IsWhole) (arg10 : Memref sig .tc .vmem S512x128 .f32) (harg10 : arg10.IsWhole) (hc0 : ¬cond0_0 i) (hc1 : ¬cond0_1 i) (x0 : Vec F S512x512 .f32) (x1 : Vec F S2112x512 .bf16) (x2 : Vec F S128x512 .bf16) (x3 : Vec F S1x2112 .f32) (x4 : Vec F S64x1536 .f32) (x5 : Vec F S64x576 .f32) (xs0 : Vec F S512x2112 .f32) (xs1 : Vec F S512x128 .f32) :
    sout0_B_1 c i arg2 harg2 arg3 harg3 arg4 harg4 arg5 harg5 arg6 harg6 arg7 harg7 arg8 harg8 arg9 harg9 arg10 harg10 hc0 hc1 x0 x1 x2 x3 x4 x5 xs0 xs1 = k0_pay5 x0 x2 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  rw [View.canon_unit_zero hz]
  simp only [View.readAt_eq_ld, harg2.read_unread, harg4.read_unread, harg10.read_unread,
    View.ld_unit_zero (S := S512x512) hz, View.ld_unit_zero (S := S128x512) hz, View.ld_unit_zero (S := S512x128) hz]

/-- The last reduction step, wide sum: as at a middle step. -/
theorem last_wide (c : Dev nD) (i : grid0.Coords) (arg2 : Memref sig .tc .vmem S512x512 .f32) (harg2 : arg2.IsWhole) (arg3 : Memref sig .tc .vmem S2112x512 .bf16) (harg3 : arg3.IsWhole) (arg4 : Memref sig .tc .vmem S128x512 .bf16) (harg4 : arg4.IsWhole) (arg5 : Memref sig .tc .vmem S1x2112 .f32) (harg5 : arg5.IsWhole) (arg6 : Memref sig .tc .vmem S64x1536 .f32) (harg6 : arg6.IsWhole) (arg7 : Memref sig .tc .vmem S64x576 .f32) (harg7 : arg7.IsWhole) (arg8 : Memref sig .tc .vmem S512x2112 .f32) (harg8 : arg8.IsWhole) (arg9 : Memref sig .tc .vmem S512x2112 .f32) (harg9 : arg9.IsWhole) (arg10 : Memref sig .tc .vmem S512x128 .f32) (harg10 : arg10.IsWhole) (hc0 : ¬cond0_0 i) (hc1 : cond0_1 i) (x0 : Vec F S512x512 .f32) (x1 : Vec F S2112x512 .bf16) (x2 : Vec F S128x512 .bf16) (x3 : Vec F S1x2112 .f32) (x4 : Vec F S64x1536 .f32) (x5 : Vec F S64x576 .f32) (xs0 : Vec F S512x2112 .f32) (xs1 : Vec F S512x128 .f32) :
    sout0_C_0 c i arg2 harg2 arg3 harg3 arg4 harg4 arg5 harg5 arg6 harg6 arg7 harg7 arg8 harg8 arg9 harg9 arg10 harg10 hc0 hc1 x0 x1 x2 x3 x4 x5 xs0 xs1 = k0_pay4 x0 x1 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero hz]
  simp only [View.readAt_eq_ld, harg2.read_unread, harg3.read_unread, harg9.read_unread,
    View.ld_unit_zero (S := S512x512) hz, View.ld_unit_zero (S := S2112x512) hz, View.ld_unit_zero (S := S512x2112) hz]

/-- The last reduction step, narrow sum: as at a middle step. -/
theorem last_narrow (c : Dev nD) (i : grid0.Coords) (arg2 : Memref sig .tc .vmem S512x512 .f32) (harg2 : arg2.IsWhole) (arg3 : Memref sig .tc .vmem S2112x512 .bf16) (harg3 : arg3.IsWhole) (arg4 : Memref sig .tc .vmem S128x512 .bf16) (harg4 : arg4.IsWhole) (arg5 : Memref sig .tc .vmem S1x2112 .f32) (harg5 : arg5.IsWhole) (arg6 : Memref sig .tc .vmem S64x1536 .f32) (harg6 : arg6.IsWhole) (arg7 : Memref sig .tc .vmem S64x576 .f32) (harg7 : arg7.IsWhole) (arg8 : Memref sig .tc .vmem S512x2112 .f32) (harg8 : arg8.IsWhole) (arg9 : Memref sig .tc .vmem S512x2112 .f32) (harg9 : arg9.IsWhole) (arg10 : Memref sig .tc .vmem S512x128 .f32) (harg10 : arg10.IsWhole) (hc0 : ¬cond0_0 i) (hc1 : cond0_1 i) (x0 : Vec F S512x512 .f32) (x1 : Vec F S2112x512 .bf16) (x2 : Vec F S128x512 .bf16) (x3 : Vec F S1x2112 .f32) (x4 : Vec F S64x1536 .f32) (x5 : Vec F S64x576 .f32) (xs0 : Vec F S512x2112 .f32) (xs1 : Vec F S512x128 .f32) :
    sout0_C_1 c i arg2 harg2 arg3 harg3 arg4 harg4 arg5 harg5 arg6 harg6 arg7 harg7 arg8 harg8 arg9 harg9 arg10 harg10 hc0 hc1 x0 x1 x2 x3 x4 x5 xs0 xs1 = k0_pay5 x0 x2 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero hz]
  simp only [View.readAt_eq_ld, harg2.read_unread, harg4.read_unread, harg10.read_unread,
    View.ld_unit_zero (S := S512x512) hz, View.ld_unit_zero (S := S128x512) hz, View.ld_unit_zero (S := S512x128) hz]

/-- The last reduction step, output block: the two stores, made from the two sums as this step leaves them. -/
theorem last_out (c : Dev nD) (i : grid0.Coords) (arg2 : Memref sig .tc .vmem S512x512 .f32) (harg2 : arg2.IsWhole) (arg3 : Memref sig .tc .vmem S2112x512 .bf16) (harg3 : arg3.IsWhole) (arg4 : Memref sig .tc .vmem S128x512 .bf16) (harg4 : arg4.IsWhole) (arg5 : Memref sig .tc .vmem S1x2112 .f32) (harg5 : arg5.IsWhole) (arg6 : Memref sig .tc .vmem S64x1536 .f32) (harg6 : arg6.IsWhole) (arg7 : Memref sig .tc .vmem S64x576 .f32) (harg7 : arg7.IsWhole) (arg8 : Memref sig .tc .vmem S512x2112 .f32) (harg8 : arg8.IsWhole) (arg9 : Memref sig .tc .vmem S512x2112 .f32) (harg9 : arg9.IsWhole) (arg10 : Memref sig .tc .vmem S512x128 .f32) (harg10 : arg10.IsWhole) (hc0 : ¬cond0_0 i) (hc1 : cond0_1 i) (x0 : Vec F S512x512 .f32) (x1 : Vec F S2112x512 .bf16) (x2 : Vec F S128x512 .bf16) (x3 : Vec F S1x2112 .f32) (x4 : Vec F S64x1536 .f32) (x5 : Vec F S64x576 .f32) (xs0 : Vec F S512x2112 .f32) (xs1 : Vec F S512x128 .f32) :
    out0_C_6 c i arg2 harg2 arg3 harg3 arg4 harg4 arg5 harg5 arg6 harg6 arg7 harg7 arg8 harg8 arg9 harg9 arg10 harg10 hc0 hc1 x0 x1 x2 x3 x4 x5 xs0 xs1
      = View.canon (lastStores (k0_pay4 x0 x1 xs0) (k0_pay5 x0 x2 xs1) x4 x5) := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.readCov_unit_zero (S := S512x128) _ hz, readCov_whole (S := S512x2112) _ hz, readCov_whole (S := S512x2112) _ hz]
  simp only [View.readAt_eq_ld, harg2.read_unread, harg3.read_unread, harg4.read_unread, harg6.read_unread,
    harg7.read_unread, harg9.read_unread, harg10.read_unread,
    View.ld_unit_zero (S := S512x512) hz, View.ld_unit_zero (S := S2112x512) hz, View.ld_unit_zero (S := S128x512) hz,
    View.ld_unit_zero (S := S512x2112) hz, View.ld_unit_zero (S := S512x128) hz, View.ld_unit_zero (S := S64x1536) hz,
    View.ld_unit_zero (S := S64x576) hz]
  rfl

end Cert.KernelIdeal.Pieces

end
-- ==== Proof.LibDotRead.lean ====
/-
  A contraction over one axis, read at an index, on the extended reals.

  A product of two arrays that contracts ONE axis of each, whatever batch and free axes surround it, is at every result
  index the sum, over the shared axis's coordinate k, of the left operand at an index L k times the right operand at an
  index R k.  The dimension numbers determine L and R: a batch axis or a free axis of an operand reads one coordinate of
  the result index (its position among the result's axes is: the batch axes first, then the left operand's free axes, then
  the right operand's), and the contracted axis reads k.  The lemmas below give each such coordinate as a number, so
  that for literal dimension numbers the two indices L k and R k can be written out by coordinates; the sum itself is the
  kernel's product into a zero accumulator and the host's general product alike.
-/
import Idealize.ShloMosaic.PureOps.Ideal.Laws
import Idealize.ShloMosaic.Lib.ValueIdx

noncomputable section

namespace Cert.DotRead

open Idealize.ShloMosaic Idealize.ShloMosaic.ValueIdx

variable {sl sr so : Shape} (d : DotDims sl sr so)

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

/-- A batch axis of the left operand reads the result index at the axis's place among the batch axes. -/
theorem lhs_batch_val (j : so.Idx) (k : d.contr.Idx) (a : Fin sl.rank) (hb : a ∈ d.lhsBatch)
    (q : Fin so.rank) (hq : d.lhsBatch.idxOf a = q.val) : (d.lhsIdx j k a).val = (j q).val := by
  unfold DotDims.lhsIdx
  rw [dif_pos hb]
  simp only [Fin.val_cast]
  exact val_congr j _ _ _ q.isLt hq

/-- A free axis of the left operand reads the result index after the batch axes. -/
theorem lhs_free_val (j : so.Idx) (k : d.contr.Idx) (a : Fin sl.rank) (hb : a ∉ d.lhsBatch) (hn : a ∈ d.lhsNonContracting)
    (q : Fin so.rank) (hq : d.lhsBatch.length + d.lhsNonContracting.idxOf a = q.val) : (d.lhsIdx j k a).val = (j q).val := by
  unfold DotDims.lhsIdx
  rw [dif_neg hb, dif_pos hn]
  simp only [Fin.val_cast]
  exact val_congr j _ _ _ q.isLt hq

/-- A batch axis of the right operand reads the result index at the axis's place among the batch axes. -/
theorem rhs_batch_val (j : so.Idx) (k : d.contr.Idx) (a : Fin sr.rank) (hb : a ∈ d.rhsBatch)
    (q : Fin so.rank) (hq : d.rhsBatch.idxOf a = q.val) : (d.rhsIdx j k a).val = (j q).val := by
  unfold DotDims.rhsIdx
  rw [dif_pos hb]
  simp only [Fin.val_cast]
  exact val_congr j _ _ _ q.isLt hq

/-- A free axis of the right operand reads the result index after the batch axes and the left operand's free axes. -/
theorem rhs_free_val (j : so.Idx) (k : d.contr.Idx) (a : Fin sr.rank) (hb : a ∉ d.rhsBatch) (hn : a ∈ d.rhsNonContracting)
    (q : Fin so.rank) (hq : d.lhsBatch.length + d.lhsNonContracting.length + d.rhsNonContracting.idxOf a = q.val) :
    (d.rhsIdx j k a).val = (j q).val := by
  unfold DotDims.rhsIdx
  rw [dif_neg hb, dif_pos hn]
  simp only [Fin.val_cast]
  exact val_congr j _ _ _ q.isLt hq

/-- One contracted axis: the contraction shape has one axis … -/
theorem contr_rank_one {cl : Fin sl.rank} (hc : d.lhsContracting = [cl]) : d.contr.rank = 1 := by
  rw [d.rank_contr, hc]; rfl

/-- … of the contracted axis's extent. -/
theorem contr_size_one {cl : Fin sl.rank} (hc : d.lhsContracting = [cl]) :
    d.contr.size ⟨0, by rw [contr_rank_one d hc]; exact Nat.one_pos⟩ = sl.size cl := by
  rw [d.size_contr 0 (by rw [hc]; exact Nat.one_pos)]
  simp only [hc, List.getElem_cons_zero]

section One

variable (K : Nat) (hr : d.contr.rank = 1) (hs : d.contr.size ⟨0, by omega⟩ = K)

/-- The left operand's contracted axis reads the shared coordinate. -/
theorem lhs_contr_val {cl : Fin sl.rank} (hc : d.lhsContracting = [cl]) (j : so.Idx) (k : Fin K) :
    (d.lhsIdx j ((contrEquiv1 d K hr hs).symm k) cl).val = k.val :=
  (d.lhsIdx_val_of_single hc _ _).trans (contrEquiv1_symm_val d K hr hs k)

/-- The right operand's contracted axis reads the shared coordinate. -/
theorem rhs_contr_val {cr : Fin sr.rank} (hc : d.rhsContracting = [cr]) (j : so.Idx) (k : Fin K) :
    (d.rhsIdx j ((contrEquiv1 d K hr hs).symm k) cr).val = k.val :=
  (d.rhsIdx_val_of_single hc _ _).trans (contrEquiv1_symm_val d K hr hs k)

/-- A kernel's product into a zero accumulator: the sum over the shared coordinate. -/
theorem matmul_zero_read {φ₁ φ₂ : FTy} (prec : Option ContractPrecision) (lhs : FVec Ideal sl φ₁) (rhs : FVec Ideal sr φ₂)
    (j : so.Idx) (L : Fin K → sl.Idx) (R : Fin K → sr.Idx)
    (hL : ∀ k, d.lhsIdx j ((contrEquiv1 d K hr hs).symm k) = L k)
    (hR : ∀ k, d.rhsIdx j ((contrEquiv1 d K hr hs).symm k) = R k) :
    FloatOps.matmul d prec lhs rhs (constant so .f32 0x00000000#32) j = ∑ k : Fin K, lhs (L k) * rhs (R k) := by
  rw [Ideal.matmul_constant_zero_apply, ← Equiv.sum_comp (contrEquiv1 d K hr hs).symm]
  exact Finset.sum_congr rfl fun k _ => by rw [hL k, hR k]

/-- The host's general product: the same sum. -/
theorem dotGeneral_read {φ₁ φ₂ : FTy} (prec : Option ContractPrecision) (sched : HostSchedule)
    (lhs : FVec Ideal sl φ₁) (rhs : FVec Ideal sr φ₂)
    (j : so.Idx) (L : Fin K → sl.Idx) (R : Fin K → sr.Idx)
    (hL : ∀ k, d.lhsIdx j ((contrEquiv1 d K hr hs).symm k) = L k)
    (hR : ∀ k, d.rhsIdx j ((contrEquiv1 d K hr hs).symm k) = R k) :
    FloatOps.dotGeneral d prec sched lhs rhs j = ∑ k : Fin K, lhs (L k) * rhs (R k) := by
  rw [Ideal.dotGeneral_apply, ← Equiv.sum_comp (contrEquiv1 d K hr hs).symm]
  exact Finset.sum_congr rfl fun k _ => by rw [hL k, hR k]

end One

end Cert.DotRead

end
-- ==== Proof.PayRead.lean ====
/-
  The body's arithmetic read at one index, on the extended reals.

  On the extended reals a change of float format is the identity and a matrix product into a zero accumulator is
  the plain sum over the shared coordinate.  So, entry by entry:
    * the bias rows: entry (r, o) is the bias row's entry o;
    * the zero fill: every entry is the zero word's value;
    * a reduction step of the wide sum: entry (r, o) is the previous entry plus the sum over the 512 coordinates h of
      this block of  x(r, h) · w(o, h)  (both operands are contracted along their second axis);
    * a reduction step of the narrow sum: the same with the [128, 512] operand;
    * the two final pieces: entry (r, o) of the given base plus the sum over the 64 coordinates q of the narrow
      sum's entry (r, q), respectively (r, 64 + q), times the factor's entry (q, o).
-/
import proofs.«139467_j79800492359938_2_alg».proof.Proof.Gen.KernelIdeal.Skeleton
import proofs.«139467_j79800492359938_2_alg».proof.Proof.LibDotRead
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayRead

open Cert.KernelIdeal Cert.KernelIdeal.Gen Idealize.ShloMosaic Idealize.ShloMosaic.ValueIdx

/-- The bias rows: the one row, whatever the row asked for. -/
theorem biasRows_apply (v : Vec Ideal S1x2112 .f32) (r : Fin 512) (o : Fin 2112) :
    k0_pay1 v (ix2 r o) = v (ix2 (0 : Fin 1) o) := by
  unfold k0_pay1
  simp only [shapeCast_self]
  exact broadcastTo_1b_ab_apply v _ r o

/-- The zero fill. -/
theorem zeroFill_apply (y : S512x128.Idx) : k0_pay2 (F := Ideal) y = 0 := by
  unfold k0_pay2
  simp only [shapeCast_self]
  exact Ideal.ofBits_zero_f32

/-- One reduction step of the wide sum. -/
theorem wideStep_apply (x : Vec Ideal S512x512 .f32) (w : Vec Ideal S2112x512 .bf16) (acc : Vec Ideal S512x2112 .f32)
    (r : Fin 512) (o : Fin 2112) :
    k0_pay4 x w acc (ix2 r o) = acc (ix2 r o) + ∑ h : Fin 512, x (ix2 r h) * w (ix2 o h) := by
  unfold k0_pay4 k0_pay3
  simp only [shapeCast_self, matmul]
  refine congrArg (acc (ix2 r o) + ·) ?_
  refine (Cert.DotRead.matmul_zero_read (φ₁ := .bf16) (φ₂ := .bf16) dot_S512x512_S2112x512_S512x2112_1_1_0_0_n_n 512 rfl rfl none _ _ (ix2 r o)
    (fun h => ix2 r h) (fun h => ix2 o h) ?_ ?_).trans ?_
  · intro k; funext a; apply Fin.ext
    match a with
    | ⟨0, _⟩ => exact Cert.DotRead.lhs_free_val dot_S512x512_S2112x512_S512x2112_1_1_0_0_n_n _ _ 0 (by decide) (by decide) 0 (by decide)
    | ⟨1, _⟩ => exact Cert.DotRead.lhs_contr_val dot_S512x512_S2112x512_S512x2112_1_1_0_0_n_n _ rfl rfl (cl := 1) rfl _ k
  · intro k; funext a; apply Fin.ext
    match a with
    | ⟨0, _⟩ => exact Cert.DotRead.rhs_free_val dot_S512x512_S2112x512_S512x2112_1_1_0_0_n_n _ _ 0 (by decide) (by decide) 1 (by decide)
    | ⟨1, _⟩ => exact Cert.DotRead.rhs_contr_val dot_S512x512_S2112x512_S512x2112_1_1_0_0_n_n _ rfl rfl (cr := 1) rfl _ k
  · rfl

/-- One reduction step of the narrow sum. -/
theorem narrowStep_apply (x : Vec Ideal S512x512 .f32) (a : Vec Ideal S128x512 .bf16) (acc : Vec Ideal S512x128 .f32)
    (r : Fin 512) (j : Fin 128) :
    k0_pay5 x a acc (ix2 r j) = acc (ix2 r j) + ∑ h : Fin 512, x (ix2 r h) * a (ix2 j h) := by
  unfold k0_pay5 k0_pay3
  simp only [shapeCast_self, matmul]
  refine congrArg (acc (ix2 r j) + ·) ?_
  refine (Cert.DotRead.matmul_zero_read (φ₁ := .bf16) (φ₂ := .bf16) dot_S512x512_S128x512_S512x128_1_1_0_0_n_n 512 rfl rfl none _ _ (ix2 r j)
    (fun h => ix2 r h) (fun h => ix2 j h) ?_ ?_).trans ?_
  · intro k; funext a; apply Fin.ext
    match a with
    | ⟨0, _⟩ => exact Cert.DotRead.lhs_free_val dot_S512x512_S128x512_S512x128_1_1_0_0_n_n _ _ 0 (by decide) (by decide) 0 (by decide)
    | ⟨1, _⟩ => exact Cert.DotRead.lhs_contr_val dot_S512x512_S128x512_S512x128_1_1_0_0_n_n _ rfl rfl (cl := 1) rfl _ k
  · intro k; funext a; apply Fin.ext
    match a with
    | ⟨0, _⟩ => exact Cert.DotRead.rhs_free_val dot_S512x512_S128x512_S512x128_1_1_0_0_n_n _ _ 0 (by decide) (by decide) 1 (by decide)
    | ⟨1, _⟩ => exact Cert.DotRead.rhs_contr_val dot_S512x512_S128x512_S512x128_1_1_0_0_n_n _ rfl rfl (cr := 1) rfl _ k
  · rfl

/-- The final piece over columns [0, 1536): the base plus the narrow sum's first half times the factor. -/
theorem lowPiece_apply (s1 : Vec Ideal S512x128 .f32) (b : Vec Ideal S64x1536 .f32) (base : Vec Ideal S512x1536 .f32)
    (r : Fin 512) (o : Fin 1536) :
    k0_pay7 s1 b base (ix2 r o)
      = base (ix2 r o) + ∑ q : Fin 64, s1 (ix2 r (⟨q.val, by omega⟩ : Fin 128)) * b (ix2 q o) := by
  unfold k0_pay7 k0_pay6
  simp only [shapeCast_self, matmul]
  refine congrArg (base (ix2 r o) + ·) ?_
  refine (Cert.DotRead.matmul_zero_read (φ₁ := .bf16) (φ₂ := .bf16) dot_S512x64_S64x1536_S512x1536_1_0_0_1_n_n 64 rfl rfl none _ _ (ix2 r o)
    (fun q => ix2 r q) (fun q => ix2 q o) ?_ ?_).trans ?_
  · intro k; funext a; apply Fin.ext
    match a with
    | ⟨0, _⟩ => exact Cert.DotRead.lhs_free_val dot_S512x64_S64x1536_S512x1536_1_0_0_1_n_n _ _ 0 (by decide) (by decide) 0 (by decide)
    | ⟨1, _⟩ => exact Cert.DotRead.lhs_contr_val dot_S512x64_S64x1536_S512x1536_1_0_0_1_n_n _ rfl rfl (cl := 1) rfl _ k
  · intro k; funext a; apply Fin.ext
    match a with
    | ⟨0, _⟩ => exact Cert.DotRead.rhs_contr_val dot_S512x64_S64x1536_S512x1536_1_0_0_1_n_n _ rfl rfl (cr := 0) rfl _ k
    | ⟨1, _⟩ => exact Cert.DotRead.rhs_free_val dot_S512x64_S64x1536_S512x1536_1_0_0_1_n_n _ _ 1 (by decide) (by decide) 1 (by decide)
  · exact Finset.sum_congr rfl fun q _ => congrArg (· * b (ix2 q o))
      (slice2_axis1_apply 0 _ _ r q (⟨q.val, by omega⟩ : Fin 128) (by simp))

/-- The final piece over columns [1536, 2112): the base plus the narrow sum's second half times the factor. -/
theorem highPiece_apply (s1 : Vec Ideal S512x128 .f32) (b : Vec Ideal S64x576 .f32) (base : Vec Ideal S512x576 .f32)
    (r : Fin 512) (o : Fin 576) :
    k0_pay8 s1 b base (ix2 r o)
      = base (ix2 r o) + ∑ q : Fin 64, s1 (ix2 r (⟨64 + q.val, by omega⟩ : Fin 128)) * b (ix2 q o) := by
  unfold k0_pay8 k0_pay6
  simp only [shapeCast_self, matmul]
  refine congrArg (base (ix2 r o) + ·) ?_
  refine (Cert.DotRead.matmul_zero_read (φ₁ := .bf16) (φ₂ := .bf16) dot_S512x64_S64x576_S512x576_1_0_0_1_n_n 64 rfl rfl none _ _ (ix2 r o)
    (fun q => ix2 r q) (fun q => ix2 q o) ?_ ?_).trans ?_
  · intro k; funext a; apply Fin.ext
    match a with
    | ⟨0, _⟩ => exact Cert.DotRead.lhs_free_val dot_S512x64_S64x576_S512x576_1_0_0_1_n_n _ _ 0 (by decide) (by decide) 0 (by decide)
    | ⟨1, _⟩ => exact Cert.DotRead.lhs_contr_val dot_S512x64_S64x576_S512x576_1_0_0_1_n_n _ rfl rfl (cl := 1) rfl _ k
  · intro k; funext a; apply Fin.ext
    match a with
    | ⟨0, _⟩ => exact Cert.DotRead.rhs_contr_val dot_S512x64_S64x576_S512x576_1_0_0_1_n_n _ rfl rfl (cr := 0) rfl _ k
    | ⟨1, _⟩ => exact Cert.DotRead.rhs_free_val dot_S512x64_S64x576_S512x576_1_0_0_1_n_n _ _ 1 (by decide) (by decide) 1 (by decide)
  · exact Finset.sum_congr rfl fun q _ => congrArg (· * b (ix2 q o))
      (slice2_axis1_apply 64 _ _ r q (⟨64 + q.val, by omega⟩ : Fin 128) rfl)

end Cert.KernelIdeal.PayRead

end
-- ==== Proof.Blocks.lean ====
/-
  The blocks the body sees at a grid point, read entry by entry from the five arguments.

  Point t of the grid is (i, k) = (t / 14, t % 14).  The pipeline hands the body
    * the block (i, k) of x:            entry (r, h) is x at (512 i + r, 512 k + h);
    * the block (0, k) of the weight:   entry (o, h) is W at (o, 512 k + h);
    * the block (0, k) of the stacked low-rank factor:  entry (j, h) is A at (j, 512 k + h);
    * the bias as one row:              entry (0, o) is the bias at o;
    * the two output-side factors whole, each a slice of the stacked factor B turned on its side:
      entry (q, o) is B at (0, o, q), respectively B at (1, o, q).
  The weight and the stacked factor reach the region through a change of float format, the bias through a
  reshape, the two output-side factors through a slice, a reshape and a transpose, all done by the host before the
  region starts; on the extended reals none of them changes a value, they only move coordinates.
-/
import proofs.«139467_j79800492359938_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

namespace Cert.KernelIdeal.Blocks

open Cert.KernelIdeal Cert.KernelIdeal.Gen Idealize.ShloMosaic Idealize.ShloMosaic.TcCoe Idealize.SL.Sem
open Idealize.ShloMosaic.ValueIdx

/-! ## Where each window's block sits: the index maps in closed form, decided once over the grid -/

theorem xIndex : ∀ t : Fin cfg0.N, win0_0.index t (0 : Fin 2) = t.val / 14 ∧ win0_0.index t (1 : Fin 2) = t.val % 14 :=
  (by decide +kernel : ∀ t : Fin grid0.N, _)
theorem wIndex : ∀ t : Fin cfg0.N, win0_1.index t (0 : Fin 2) = 0 ∧ win0_1.index t (1 : Fin 2) = t.val % 14 :=
  (by decide +kernel : ∀ t : Fin grid0.N, _)
theorem aIndex : ∀ t : Fin cfg0.N, win0_2.index t (0 : Fin 2) = 0 ∧ win0_2.index t (1 : Fin 2) = t.val % 14 :=
  (by decide +kernel : ∀ t : Fin grid0.N, _)
theorem biasIndex : ∀ t : Fin cfg0.N, win0_3.index t (0 : Fin 2) = 0 ∧ win0_3.index t (1 : Fin 2) = 0 :=
  (by decide +kernel : ∀ t : Fin grid0.N, _)
theorem b0Index : ∀ t : Fin cfg0.N, win0_4.index t (0 : Fin 2) = 0 ∧ win0_4.index t (1 : Fin 2) = 0 :=
  (by decide +kernel : ∀ t : Fin grid0.N, _)
theorem b1Index : ∀ t : Fin cfg0.N, win0_5.index t (0 : Fin 2) = 0 ∧ win0_5.index t (1 : Fin 2) = 0 :=
  (by decide +kernel : ∀ t : Fin grid0.N, _)
theorem outIndex : ∀ t : Fin cfg0.N, win0_6.index t (0 : Fin 2) = t.val / 14 ∧ win0_6.index t (1 : Fin 2) = 0 :=
  (by decide +kernel : ∀ t : Fin grid0.N, _)

section AnyValues

variable {F : FTy → Type} [FloatOps F]
variable (m : (ℓ : Loc nD τ sig) → Buf (Elt F) ℓ)

/-! ## A block's entry is an entry of the array the region found -/

theorem xBlock_apply (c : Dev nD) (t : Fin cfg0.N) (r h : Fin 512) (R : Fin 8192) (H : Fin 7168)
    (hR : R.val = 512 * (t.val / 14) + r.val) (hH : H.val = 512 * (t.val % 14) + h.val) :
    (iblk m c 0 t : Vec F S512x512 .f32) (ix2 r h) = V m c main_arg0 (ix2 R H) := by
  have hi := xIndex t
  unfold iblk
  rw [View.read_apply]
  show V m c main_arg0 _ = V m c main_arg0 _
  congr 1
  funext a
  apply Fin.ext
  match a with
  | ⟨0, _⟩ => show win0_0.index t 0 * 512 + 1 * r.val = R.val; rw [hi.1, hR]; omega
  | ⟨1, _⟩ => show win0_0.index t 1 * 512 + 1 * h.val = H.val; rw [hi.2, hH]; omega

theorem wBlock_apply (c : Dev nD) (t : Fin cfg0.N) (o : Fin 2112) (h : Fin 512) (H : Fin 7168)
    (hH : H.val = 512 * (t.val % 14) + h.val) :
    (iblk m c 1 t : Vec F S2112x512 .bf16) (ix2 o h) = V m c main_v0 (ix2 o H) := by
  have hi := wIndex t
  unfold iblk
  rw [View.read_apply]
  show V m c main_v0 _ = V m c main_v0 _
  congr 1
  funext a
  apply Fin.ext
  match a with
  | ⟨0, _⟩ => show win0_1.index t 0 * 2112 + 1 * o.val = o.val; rw [hi.1]; omega
  | ⟨1, _⟩ => show win0_1.index t 1 * 512 + 1 * h.val = H.val; rw [hi.2, hH]; omega

theorem aBlock_apply (c : Dev nD) (t : Fin cfg0.N) (j : Fin 128) (h : Fin 512) (H : Fin 7168)
    (hH : H.val = 512 * (t.val % 14) + h.val) :
    (iblk m c 2 t : Vec F S128x512 .bf16) (ix2 j h) = V m c main_v1 (ix2 j H) := by
  have hi := aIndex t
  unfold iblk
  rw [View.read_apply]
  show V m c main_v1 _ = V m c main_v1 _
  congr 1
  funext a
  apply Fin.ext
  match a with
  | ⟨0, _⟩ => show win0_2.index t 0 * 128 + 1 * j.val = j.val; rw [hi.1]; omega
  | ⟨1, _⟩ => show win0_2.index t 1 * 512 + 1 * h.val = H.val; rw [hi.2, hH]; omega

theorem biasBlock_apply (c : Dev nD) (t : Fin cfg0.N) (u : Fin 1) (o : Fin 2112) :
    (iblk m c 3 t : Vec F S1x2112 .f32) (ix2 u o) = V m c main_v2 (ix2 u o) := by
  have hi := biasIndex t
  unfold iblk
  rw [View.read_apply]
  show V m c main_v2 _ = V m c main_v2 _
  congr 1
  funext a
  apply Fin.ext
  match a with
  | ⟨0, _⟩ => show win0_3.index t 0 * 1 + 1 * u.val = u.val; rw [hi.1]; omega
  | ⟨1, _⟩ => show win0_3.index t 1 * 2112 + 1 * o.val = o.val; rw [hi.2]; omega

theorem b0Block_apply (c : Dev nD) (t : Fin cfg0.N) (q : Fin 64) (o : Fin 1536) :
    (iblk m c 4 t : Vec F S64x1536 .f32) (ix2 q o) = V m c main_v7 (ix2 q o) := by
  have hi := b0Index t
  unfold iblk
  rw [View.read_apply]
  show V m c main_v7 _ = V m c main_v7 _
  congr 1
  funext a
  apply Fin.ext
  match a with
  | ⟨0, _⟩ => show win0_4.index t 0 * 64 + 1 * q.val = q.val; rw [hi.1]; omega
  | ⟨1, _⟩ => show win0_4.index t 1 * 1536 + 1 * o.val = o.val; rw [hi.2]; omega

theorem b1Block_apply (c : Dev nD) (t : Fin cfg0.N) (q : Fin 64) (o : Fin 576) :
    (iblk m c 5 t : Vec F S64x576 .f32) (ix2 q o) = V m c main_v8 (ix2 q o) := by
  have hi := b1Index t
  unfold iblk
  rw [View.read_apply]
  show V m c main_v8 _ = V m c main_v8 _
  congr 1
  funext a
  apply Fin.ext
  match a with
  | ⟨0, _⟩ => show win0_5.index t 0 * 64 + 1 * q.val = q.val; rw [hi.1]; omega
  | ⟨1, _⟩ => show win0_5.index t 1 * 576 + 1 * o.val = o.val; rw [hi.2]; omega

/-! ## The arrays the region finds, as the host operations before it computed them -/

theorem entry_w (c : Dev nD) :
    (V m c main_v0 : S2112x7168.Idx → Elt F .bf16) = truncf .bf16 (m ((c : Thread nD τ).loc main_arg1)) bitsLt_bf16_f32 := by
  dsimp only [Gen.V, Gen.hostOps0]; after_results

theorem entry_a (c : Dev nD) :
    (V m c main_v1 : S128x7168.Idx → Elt F .bf16) = truncf .bf16 (m ((c : Thread nD τ).loc main_arg3)) bitsLt_bf16_f32 := by
  dsimp only [Gen.V, Gen.hostOps0]; after_results

theorem entry_bias (c : Dev nD) :
    (V m c main_v2 : S1x2112.Idx → Elt F .f32) = shapeCast S1x2112 (m ((c : Thread nD τ).loc main_arg2)) shapeCasts_S2112_S1x2112 := by
  dsimp only [Gen.V, Gen.hostOps0]; after_results; rfl

theorem entry_b0 (c : Dev nD) :
    (V m c main_v7 : S64x1536.Idx → Elt F .f32)
      = transpose S64x1536 [1, 0] (shapeCast S1536x64 (extractStridedSlice S1x1536x64 ![0, 0, 0] (m ((c : Thread nD τ).loc main_arg4))
          slices_S2x1536x64_S1x1536x64_0_0_0) shapeCasts_S1x1536x64_S1536x64) transposes_S1536x64_S64x1536_1_0 := by
  dsimp only [Gen.V, Gen.hostOps0]; after_results; rfl

theorem entry_b1 (c : Dev nD) :
    (V m c main_v8 : S64x576.Idx → Elt F .f32)
      = transpose S64x576 [1, 0] (shapeCast S576x64 (extractStridedSlice S1x576x64 ![1, 0, 0] (m ((c : Thread nD τ).loc main_arg4))
          slices_S2x1536x64_S1x576x64_1_0_0) shapeCasts_S1x576x64_S576x64) transposes_S576x64_S64x576_1_0 := by
  dsimp only [Gen.V, Gen.hostOps0]; after_results; rfl

end AnyValues

/-! ## On the extended reals: every block entry is an entry of an argument -/

section Reals

variable (m : (ℓ : Loc nD τ sig) → Buf (Elt Ideal) ℓ)

theorem x_at (c : Dev nD) (t : Fin cfg0.N) (r h : Fin 512) (R : Fin 8192) (H : Fin 7168)
    (hR : R.val = 512 * (t.val / 14) + r.val) (hH : H.val = 512 * (t.val % 14) + h.val) :
    (iblk m c 0 t : Vec Ideal S512x512 .f32) (ix2 r h) = (m ((c : Thread nD τ).loc main_arg0)) (ix2 R H) := by
  rw [xBlock_apply m c t r h R H hR hH, V_main_arg0]

theorem w_at (c : Dev nD) (t : Fin cfg0.N) (o : Fin 2112) (h : Fin 512) (H : Fin 7168)
    (hH : H.val = 512 * (t.val % 14) + h.val) :
    (iblk m c 1 t : Vec Ideal S2112x512 .bf16) (ix2 o h) = (m ((c : Thread nD τ).loc main_arg1)) (ix2 o H) := by
  rw [wBlock_apply m c t o h H hH, entry_w]; rfl

theorem a_at (c : Dev nD) (t : Fin cfg0.N) (j : Fin 128) (h : Fin 512) (H : Fin 7168)
    (hH : H.val = 512 * (t.val % 14) + h.val) :
    (iblk m c 2 t : Vec Ideal S128x512 .bf16) (ix2 j h) = (m ((c : Thread nD τ).loc main_arg3)) (ix2 j H) := by
  rw [aBlock_apply m c t j h H hH, entry_a]; rfl

theorem bias_at (c : Dev nD) (t : Fin cfg0.N) (u : Fin 1) (o : Fin 2112) :
    (iblk m c 3 t : Vec Ideal S1x2112 .f32) (ix2 u o) = (m ((c : Thread nD τ).loc main_arg2)) (ix1 o) := by
  rw [biasBlock_apply m c t u o, entry_bias]
  exact shapeCast_a_1a_apply _ _ u o

theorem b0_at (c : Dev nD) (t : Fin cfg0.N) (q : Fin 64) (o : Fin 1536) :
    (iblk m c 4 t : Vec Ideal S64x1536 .f32) (ix2 q o) = (m ((c : Thread nD τ).loc main_arg4)) (ix3 (0 : Fin 2) o q) := by
  rw [b0Block_apply m c t q o, entry_b0]
  refine (transpose_ix2_apply _ _ q o).trans ?_
  refine (shapeCast_1ab_ab_apply _ _ o q).trans ?_
  exact extractStridedSlice_apply _ _ _ _ _ (fun ax => by
    match ax with
    | ⟨0, _⟩ => rfl
    | ⟨1, _⟩ => exact (Nat.zero_add _).symm
    | ⟨2, _⟩ => exact (Nat.zero_add _).symm)

theorem b1_at (c : Dev nD) (t : Fin cfg0.N) (q : Fin 64) (o : Fin 576) :
    (iblk m c 5 t : Vec Ideal S64x576 .f32) (ix2 q o)
      = (m ((c : Thread nD τ).loc main_arg4)) (ix3 (1 : Fin 2) (⟨o.val, by omega⟩ : Fin 1536) q) := by
  rw [b1Block_apply m c t q o, entry_b1]
  refine (transpose_ix2_apply _ _ q o).trans ?_
  refine (shapeCast_1ab_ab_apply _ _ o q).trans ?_
  exact extractStridedSlice_apply _ _ _ _ _ (fun ax => by
    match ax with
    | ⟨0, _⟩ => rfl
    | ⟨1, _⟩ => exact (Nat.zero_add _).symm
    | ⟨2, _⟩ => exact (Nat.zero_add _).symm)

end Reals

end Cert.KernelIdeal.Blocks

end
-- ==== Proof.Spec.lean ====
/-
  The result as one function of the five arguments, entry by entry, on the extended reals.

  For a row s and a column o of the [8192, 2112] result:

      out(s, o) = ( Σ_h x(s, h) · W(o, h) + bias(o) ) + corr(s, o)

  where, with the low-rank projection  low(s, j) = Σ_h x(s, h) · A(j, h)  (h over the 7168 hidden coordinates, j over
  the 128 stacked rows of A),

      corr(s, o) = Σ_q low(s, q)      · B(0, o, q)           for o < 1536,
      corr(s, o) = Σ_q low(s, 64 + q) · B(1, o − 1536, q)    for o ≥ 1536        (q over the 64 rank coordinates).

  The one law used to bring a block-by-block computation of the sums over h to this form is that a sum over
  7168 = 14 · 512 coordinates is the sum, over the 14 blocks, of the sums over the 512 coordinates of a block.
  It holds in any commutative monoid, so on the extended reals no finiteness of the entries is needed.
-/
import Idealize.ShloMosaic.PureOps.Ideal
import Idealize.ShloMosaic.Lib.ValueIdx

noncomputable section

namespace Cert.LoraSpec

open Idealize.ShloMosaic Idealize.ShloMosaic.ValueIdx

section Function

variable (x : (⟨2, ![8192, 7168]⟩ : Shape).Idx → EReal) (W : (⟨2, ![2112, 7168]⟩ : Shape).Idx → EReal)
  (bias : (⟨1, ![2112]⟩ : Shape).Idx → EReal) (A : (⟨2, ![128, 7168]⟩ : Shape).Idx → EReal)
  (B : (⟨3, ![2, 1536, 64]⟩ : Shape).Idx → EReal)

/-- The main product at (s, o). -/
def mainDot (s : Fin 8192) (o : Fin 2112) : EReal := ∑ h : Fin 7168, x (ix2 s h) * W (ix2 o h)

/-- The low-rank projection at (s, j). -/
def low (s : Fin 8192) (j : Fin 128) : EReal := ∑ h : Fin 7168, x (ix2 s h) * A (ix2 j h)

/-- The correction of a column of the first slice. -/
def corrLo (s : Fin 8192) (o : Fin 1536) : EReal :=
  ∑ q : Fin 64, low x A s (⟨q.val, by omega⟩ : Fin 128) * B (ix3 (0 : Fin 2) o q)

/-- The correction of a column of the second slice, counted from the slice's first column. -/
def corrHi (s : Fin 8192) (o : Fin 576) : EReal :=
  ∑ q : Fin 64, low x A s (⟨64 + q.val, by omega⟩ : Fin 128) * B (ix3 (1 : Fin 2) (⟨o.val, by omega⟩ : Fin 1536) q)

/-- The result. -/
def result : (⟨2, ![8192, 2112]⟩ : Shape).Idx → EReal := fun i =>
  (mainDot x W (i 0) (i 1) + bias (ix1 (i 1)))
    + (if h : (i 1).val < 1536 then corrLo x A B (i 0) ⟨(i 1).val, h⟩
       else corrHi x A B (i 0) ⟨(i 1).val - 1536, by have h2 : (i 1).val < 2112 := (i 1).isLt; omega⟩)

theorem result_lo (s : Fin 8192) (o : Fin 2112) (o' : Fin 1536) (h : o.val = o'.val) :
    result x W bias A B (ix2 s o) = (mainDot x W s o + bias (ix1 o)) + corrLo x A B s o' := by
  have h' : ((ix2 s o : (⟨2, ![8192, 2112]⟩ : Shape).Idx) 1).val < 1536 := by show o.val < 1536; omega
  unfold result
  rw [dif_pos h']
  exact congrArg (fun z => (mainDot x W s o + bias (ix1 o)) + corrLo x A B s z) (Fin.ext h)

theorem result_hi (s : Fin 8192) (o : Fin 2112) (o' : Fin 576) (h : o.val = 1536 + o'.val) :
    result x W bias A B (ix2 s o) = (mainDot x W s o + bias (ix1 o)) + corrHi x A B s o' := by
  have h' : ¬((ix2 s o : (⟨2, ![8192, 2112]⟩ : Shape).Idx) 1).val < 1536 := by show ¬o.val < 1536; omega
  unfold result
  rw [dif_neg h']
  exact congrArg (fun z => (mainDot x W s o + bias (ix1 o)) + corrHi x A B s z) (Fin.ext (by show o.val - 1536 = o'.val; omega))

end Function

/-- A sum over 7168 coordinates is the sum over 14 blocks of the sums over the 512 coordinates of each block. -/
theorem sum_blocks {M : Type*} [AddCommMonoid M] (g : ℕ → M) :
    ∑ s ∈ Finset.range 14, ∑ h : Fin 512, g (512 * s + h.val) = ∑ H : Fin 7168, g H.val := by
  show _ = ∑ H : Fin (14 * 512), g H.val
  rw [Finset.sum_range (fun s => ∑ h : Fin 512, g (512 * s + h.val)),
    ← Equiv.sum_comp (finProdFinEquiv (m := 14) (n := 512)) (fun H : Fin (14 * 512) => g H.val),
    Fintype.sum_prod_type]
  refine Finset.sum_congr rfl fun s _ => Finset.sum_congr rfl fun h _ => ?_
  refine congrArg g ?_
  show 512 * s.val + h.val = h.val + 512 * s.val
  omega

end Cert.LoraSpec

end
-- ==== Proof.Fold.lean ====
/-
  The two running sums after any grid point, and the output block at the last reduction step.

  Within one row block the fourteen points k = 0 … 13 run in order, and the two running sums are a fold: the first
  point leaves  start + (this block's products), every later point adds its own block's products to what the point
  before left.  Entry by entry this is  start + Σ over the points so far of that point's products; the start is the
  bias entry for the wide sum and zero for the narrow one.  A point's products are a sum over the 512 coordinates of its
  reduction block, so after the fourteenth point the total is the sum over all 7168 coordinates: the wide sum holds
  bias(o) + Σ_h x(s, h) · W(o, h)  and the narrow sum  Σ_h x(s, h) · A(j, h),  s being the row 512 i + r of the
  row block i.  The fourteenth point then fills the output block: each entry is the wide total plus, over the 64 rank
  coordinates, the narrow totals of the column's half times the matching entries of the factor B.
-/
import proofs.«139467_j79800492359938_2_alg».proof.Proof.Gen.KernelIdeal.Value
import proofs.«139467_j79800492359938_2_alg».proof.Proof.Pieces
import proofs.«139467_j79800492359938_2_alg».proof.Proof.PayRead
import proofs.«139467_j79800492359938_2_alg».proof.Proof.Blocks
import proofs.«139467_j79800492359938_2_alg».proof.Proof.Spec

noncomputable section

namespace Cert.KernelIdeal.Fold

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The five arguments and the three blocks of a reduction step, as real-valued functions -/

abbrev argX (c : Dev nD) : S8192x7168.Idx → EReal := m ((c : Thread nD τ).loc main_arg0)
abbrev argW (c : Dev nD) : S2112x7168.Idx → EReal := m ((c : Thread nD τ).loc main_arg1)
abbrev argBias (c : Dev nD) : S2112.Idx → EReal := m ((c : Thread nD τ).loc main_arg2)
abbrev argA (c : Dev nD) : S128x7168.Idx → EReal := m ((c : Thread nD τ).loc main_arg3)
abbrev argB (c : Dev nD) : S2x1536x64.Idx → EReal := m ((c : Thread nD τ).loc main_arg4)

abbrev xBlk (c : Dev nD) (t : Fin cfg0.N) : S512x512.Idx → EReal := iblk m c 0 t
abbrev wBlk (c : Dev nD) (t : Fin cfg0.N) : S2112x512.Idx → EReal := iblk m c 1 t
abbrev aBlk (c : Dev nD) (t : Fin cfg0.N) : S128x512.Idx → EReal := iblk m c 2 t

/-! ## What one point adds -/

/-- What point `n` adds to the wide sum's entry `y`: the products of its blocks of x and of the weight, summed over
    the block's 512 coordinates (zero past the grid, where it is never used). -/
def wideAdd (c : Dev nD) (n : ℕ) (y : S512x2112.Idx) : EReal :=
  if h : n < cfg0.N then
    ∑ k : Fin 512, xBlk m c ⟨n, h⟩ (ix2 (y 0) k) * wBlk m c ⟨n, h⟩ (ix2 (y 1) k)
  else 0

/-- What point `n` adds to the narrow sum's entry `y`. -/
def narrowAdd (c : Dev nD) (n : ℕ) (y : S512x128.Idx) : EReal :=
  if h : n < cfg0.N then
    ∑ k : Fin 512, xBlk m c ⟨n, h⟩ (ix2 (y 0) k) * aBlk m c ⟨n, h⟩ (ix2 (y 1) k)
  else 0

/-! ## The fold's first step and its later steps -/

theorem wide_first (c : Dev nD) (b : ℕ) (hb0 : b % 14 = 0) (h : b < cfg0.N) (y : S512x2112.Idx) :
    Value.scAt0_0 m c b h (VS0_0.read (Elt Ideal) VS0_0.junk) y = argBias m c (ix1 (y 1)) + wideAdd m c b y := by
  obtain ⟨r, o, rfl⟩ : ∃ (r : Fin 512) (o : Fin 2112), y = ix2 r o := ⟨y 0, y 1, eq_ix2 y⟩
  have h1 : ¬b % 14 = 13 := by omega
  unfold Value.scAt0_0
  rw [dif_pos hb0, dif_neg h1, Pieces.first_wide]
  refine (PayRead.wideStep_apply _ _ _ r o).trans ?_
  rw [PayRead.biasRows_apply, Blocks.bias_at m c ⟨b, h⟩ 0 o]
  unfold wideAdd
  rw [dif_pos h]

theorem wide_later (c : Dev nD) (n : ℕ) (h : n < cfg0.N) (hn0 : ¬n % 14 = 0) (acc : Vec Ideal S512x2112 .f32)
    (y : S512x2112.Idx) : Value.scAt0_0 m c n h acc y = acc y + wideAdd m c n y := by
  obtain ⟨r, o, rfl⟩ : ∃ (r : Fin 512) (o : Fin 2112), y = ix2 r o := ⟨y 0, y 1, eq_ix2 y⟩
  unfold Value.scAt0_0
  rw [dif_neg hn0]
  by_cases h1 : n % 14 = 13
  · rw [dif_pos h1, Pieces.last_wide]
    refine (PayRead.wideStep_apply _ _ acc r o).trans ?_
    unfold wideAdd
    rw [dif_pos h]
  · rw [dif_neg h1, Pieces.mid_wide]
    refine (PayRead.wideStep_apply _ _ acc r o).trans ?_
    unfold wideAdd
    rw [dif_pos h]

theorem narrow_first (c : Dev nD) (b : ℕ) (hb0 : b % 14 = 0) (h : b < cfg0.N) (y : S512x128.Idx) :
    Value.scAt0_1 m c b h (VS0_1.read (Elt Ideal) VS0_1.junk) y = 0 + narrowAdd m c b y := by
  obtain ⟨r, j, rfl⟩ : ∃ (r : Fin 512) (j : Fin 128), y = ix2 r j := ⟨y 0, y 1, eq_ix2 y⟩
  have h1 : ¬b % 14 = 13 := by omega
  unfold Value.scAt0_1
  rw [dif_pos hb0, dif_neg h1, Pieces.first_narrow]
  refine (PayRead.narrowStep_apply _ _ _ r j).trans ?_
  rw [PayRead.zeroFill_apply]
  unfold narrowAdd
  rw [dif_pos h]

theorem narrow_later (c : Dev nD) (n : ℕ) (h : n < cfg0.N) (hn0 : ¬n % 14 = 0) (acc : Vec Ideal S512x128 .f32)
    (y : S512x128.Idx) : Value.scAt0_1 m c n h acc y = acc y + narrowAdd m c n y := by
  obtain ⟨r, j, rfl⟩ : ∃ (r : Fin 512) (j : Fin 128), y = ix2 r j := ⟨y 0, y 1, eq_ix2 y⟩
  unfold Value.scAt0_1
  rw [dif_neg hn0]
  by_cases h1 : n % 14 = 13
  · rw [dif_pos h1, Pieces.last_narrow]
    refine (PayRead.narrowStep_apply _ _ acc r j).trans ?_
    unfold narrowAdd
    rw [dif_pos h]
  · rw [dif_neg h1, Pieces.mid_narrow]
    refine (PayRead.narrowStep_apply _ _ acc r j).trans ?_
    unfold narrowAdd
    rw [dif_pos h]

/-! ## The running sums after any point -/

theorem wide_after (c : Dev nD) (t : Fin cfg0.N) (y : S512x2112.Idx) :
    (outsAt0 m c t.val t.isLt).2.1 y
      = argBias m c (ix1 (y 1)) + ∑ s ∈ Finset.range (t.val % 14 + 1), wideAdd m c (14 * (t.val / 14) + s) y := by
  rw [Value.soutsAt0_0_eq m c t]
  exact Pipeline.accAt_add_apply _ _ (fun y => argBias m c (ix1 (y 1))) (wideAdd m c) (14 * (t.val / 14)) 13
    (fun h i => wide_first m c _ (Nat.mul_mod_right 14 _) h i)
    (fun n h acc i hlt hle => wide_later m c n h (by omega) acc i)
    (t.val % 14) (by have := Nat.mod_lt t.val (show 0 < 14 by decide); omega) _ y

theorem narrow_after (c : Dev nD) (t : Fin cfg0.N) (y : S512x128.Idx) :
    (outsAt0 m c t.val t.isLt).2.2 y
      = 0 + ∑ s ∈ Finset.range (t.val % 14 + 1), narrowAdd m c (14 * (t.val / 14) + s) y := by
  rw [Value.soutsAt0_1_eq m c t]
  exact Pipeline.accAt_add_apply _ _ (fun _ => (0 : EReal)) (narrowAdd m c) (14 * (t.val / 14)) 13
    (fun h i => narrow_first m c _ (Nat.mul_mod_right 14 _) h i)
    (fun n h acc i hlt hle => narrow_later m c n h (by omega) acc i)
    (t.val % 14) (by have := Nat.mod_lt t.val (show 0 < 14 by decide); omega) _ y

/-! ## One point's products, from the arguments -/

/-- The product of row `S` of x and row `o` of the weight at the hidden coordinate `n` (zero past the last one). -/
def xwProd (c : Dev nD) (S : Fin 8192) (o : Fin 2112) (n : ℕ) : EReal :=
  if h : n < 7168 then argX m c (ix2 S ⟨n, h⟩) * argW m c (ix2 o ⟨n, h⟩) else 0

/-- The product of row `S` of x and row `j` of the stacked factor A at the hidden coordinate `n`. -/
def xaProd (c : Dev nD) (S : Fin 8192) (j : Fin 128) (n : ℕ) : EReal :=
  if h : n < 7168 then argX m c (ix2 S ⟨n, h⟩) * argA m c (ix2 j ⟨n, h⟩) else 0

/-- Point 14 i + s of row block i adds, to the entry in row r and column o, the products over the coordinates
    512 s … 512 s + 511 of row 512 i + r of x and row o of the weight. -/
theorem wideAdd_eq (c : Dev nD) (i s : ℕ) (hi : i < 16) (hs : s < 14) (r : Fin 512) (o : Fin 2112) (S : Fin 8192)
    (hS : S.val = 512 * i + r.val) :
    wideAdd m c (14 * i + s) (ix2 r o)
      = ∑ k : Fin 512, xwProd m c S o (512 * s + k.val) := by
  have hN : cfg0.N = 224 := N_0
  have hn : 14 * i + s < cfg0.N := by omega
  unfold wideAdd
  rw [dif_pos hn]
  refine Finset.sum_congr rfl fun k _ => ?_
  have hk : 512 * s + k.val < 7168 := by have := k.isLt; omega
  have hd : (14 * i + s) / 14 = i := by omega
  have hm : (14 * i + s) % 14 = s := by omega
  have e1 : xBlk m c ⟨14 * i + s, hn⟩ (ix2 r k) = argX m c (ix2 S ⟨512 * s + k.val, hk⟩) :=
    Blocks.x_at m c ⟨14 * i + s, hn⟩ r k S ⟨512 * s + k.val, hk⟩
      (by show S.val = 512 * ((14 * i + s) / 14) + r.val; rw [hd]; exact hS)
      (by show 512 * s + k.val = 512 * ((14 * i + s) % 14) + k.val; rw [hm])
  have e2 : wBlk m c ⟨14 * i + s, hn⟩ (ix2 o k) = argW m c (ix2 o ⟨512 * s + k.val, hk⟩) :=
    Blocks.w_at m c ⟨14 * i + s, hn⟩ o k ⟨512 * s + k.val, hk⟩
      (by show 512 * s + k.val = 512 * ((14 * i + s) % 14) + k.val; rw [hm])
  unfold xwProd
  rw [dif_pos hk]
  show xBlk m c ⟨14 * i + s, hn⟩ (ix2 r k) * wBlk m c ⟨14 * i + s, hn⟩ (ix2 o k) = _
  rw [e1, e2]

theorem narrowAdd_eq (c : Dev nD) (i s : ℕ) (hi : i < 16) (hs : s < 14) (r : Fin 512) (j : Fin 128) (S : Fin 8192)
    (hS : S.val = 512 * i + r.val) :
    narrowAdd m c (14 * i + s) (ix2 r j)
      = ∑ k : Fin 512, xaProd m c S j (512 * s + k.val) := by
  have hN : cfg0.N = 224 := N_0
  have hn : 14 * i + s < cfg0.N := by omega
  unfold narrowAdd
  rw [dif_pos hn]
  refine Finset.sum_congr rfl fun k _ => ?_
  have hk : 512 * s + k.val < 7168 := by have := k.isLt; omega
  have hd : (14 * i + s) / 14 = i := by omega
  have hm : (14 * i + s) % 14 = s := by omega
  have e1 : xBlk m c ⟨14 * i + s, hn⟩ (ix2 r k) = argX m c (ix2 S ⟨512 * s + k.val, hk⟩) :=
    Blocks.x_at m c ⟨14 * i + s, hn⟩ r k S ⟨512 * s + k.val, hk⟩
      (by show S.val = 512 * ((14 * i + s) / 14) + r.val; rw [hd]; exact hS)
      (by show 512 * s + k.val = 512 * ((14 * i + s) % 14) + k.val; rw [hm])
  have e2 : aBlk m c ⟨14 * i + s, hn⟩ (ix2 j k) = argA m c (ix2 j ⟨512 * s + k.val, hk⟩) :=
    Blocks.a_at m c ⟨14 * i + s, hn⟩ j k ⟨512 * s + k.val, hk⟩
      (by show 512 * s + k.val = 512 * ((14 * i + s) % 14) + k.val; rw [hm])
  unfold xaProd
  rw [dif_pos hk]
  show xBlk m c ⟨14 * i + s, hn⟩ (ix2 r k) * aBlk m c ⟨14 * i + s, hn⟩ (ix2 j k) = _
  rw [e1, e2]

/-! ## The totals at a row block's last point -/

theorem wide_total (c : Dev nD) (t : Fin cfg0.N) (h13 : t.val % 14 = 13) (r : Fin 512) (o : Fin 2112) (S : Fin 8192)
    (hS : S.val = 512 * (t.val / 14) + r.val) :
    (outsAt0 m c t.val t.isLt).2.1 (ix2 r o)
      = argBias m c (ix1 o) + Cert.LoraSpec.mainDot (argX m c) (argW m c) S o := by
  have hN : cfg0.N = 224 := N_0
  have hi : t.val / 14 < 16 := by have := t.isLt; omega
  rw [wide_after m c t (ix2 r o), h13]
  refine congrArg (argBias m c (ix1 o) + ·) ?_
  rw [Finset.sum_congr rfl (fun s hs => wideAdd_eq m c (t.val / 14) s hi (Finset.mem_range.mp hs) r o S hS),
    Cert.LoraSpec.sum_blocks]
  unfold Cert.LoraSpec.mainDot xwProd
  exact Finset.sum_congr rfl fun H _ => dif_pos H.isLt

theorem narrow_total (c : Dev nD) (t : Fin cfg0.N) (h13 : t.val % 14 = 13) (r : Fin 512) (j : Fin 128) (S : Fin 8192)
    (hS : S.val = 512 * (t.val / 14) + r.val) :
    (outsAt0 m c t.val t.isLt).2.2 (ix2 r j) = Cert.LoraSpec.low (argX m c) (argA m c) S j := by
  have hN : cfg0.N = 224 := N_0
  have hi : t.val / 14 < 16 := by have := t.isLt; omega
  rw [narrow_after m c t (ix2 r j), h13, zero_add]
  rw [Finset.sum_congr rfl (fun s hs => narrowAdd_eq m c (t.val / 14) s hi (Finset.mem_range.mp hs) r j S hS),
    Cert.LoraSpec.sum_blocks]
  unfold Cert.LoraSpec.low xaProd
  exact Finset.sum_congr rfl fun H _ => dif_pos H.isLt

/-! ## The output block at a row block's last point -/

/-- The block the two final stores leave, entry by entry: the wide sum's entry plus, over the 64 rank coordinates, the
    narrow sum's entries of the column's half times the factor's. -/
def outBlock (s0 : Vec Ideal S512x2112 .f32) (s1 : Vec Ideal S512x128 .f32) (b0 : Vec Ideal S64x1536 .f32)
    (b1 : Vec Ideal S64x576 .f32) : S512x2112.Idx → EReal := fun y =>
  s0 y + (if h : (y 1).val < 1536 then
      ∑ q : Fin 64, s1 (ix2 (y 0) (⟨q.val, by omega⟩ : Fin 128)) * b0 (ix2 q (⟨(y 1).val, h⟩ : Fin 1536))
    else
      ∑ q : Fin 64, s1 (ix2 (y 0) (⟨64 + q.val, by omega⟩ : Fin 128))
        * b1 (ix2 q (⟨(y 1).val - 1536, by have h2 : (y 1).val < 2112 := (y 1).isLt; omega⟩ : Fin 576)))

theorem outBlock_lo (s0 : Vec Ideal S512x2112 .f32) (s1 : Vec Ideal S512x128 .f32) (b0 : Vec Ideal S64x1536 .f32)
    (b1 : Vec Ideal S64x576 .f32) (y : S512x2112.Idx) (r : Fin 512) (o : Fin 1536)
    (h0 : (y 0).val = r.val) (h1 : (y 1).val = o.val) :
    outBlock s0 s1 b0 b1 y = s0 y + ∑ q : Fin 64, s1 (ix2 r (⟨q.val, by omega⟩ : Fin 128)) * b0 (ix2 q o) := by
  have hlt : (y 1).val < 1536 := by omega
  have er : y 0 = r := Fin.ext h0
  unfold outBlock
  rw [dif_pos hlt, er]
  exact congrArg (fun z : Fin 1536 => s0 y + ∑ q : Fin 64, s1 (ix2 r (⟨q.val, by omega⟩ : Fin 128)) * b0 (ix2 q z))
    (Fin.ext h1)

theorem outBlock_hi (s0 : Vec Ideal S512x2112 .f32) (s1 : Vec Ideal S512x128 .f32) (b0 : Vec Ideal S64x1536 .f32)
    (b1 : Vec Ideal S64x576 .f32) (y : S512x2112.Idx) (r : Fin 512) (o : Fin 576)
    (h0 : (y 0).val = r.val) (h1 : (y 1).val = 1536 + o.val) :
    outBlock s0 s1 b0 b1 y = s0 y + ∑ q : Fin 64, s1 (ix2 r (⟨64 + q.val, by omega⟩ : Fin 128)) * b1 (ix2 q o) := by
  have hlt : ¬(y 1).val < 1536 := by omega
  have er : y 0 = r := Fin.ext h0
  unfold outBlock
  rw [dif_neg hlt, er]
  exact congrArg (fun z : Fin 576 => s0 y + ∑ q : Fin 64, s1 (ix2 r (⟨64 + q.val, by omega⟩ : Fin 128)) * b1 (ix2 q z))
    (Fin.ext (by show (y 1).val - 1536 = o.val; omega))

/-- The two final stores leave that block: each store's payload is the block's entries over its rectangle, and the
    two rectangles, columns [0, 1536) and [1536, 2112), cover the block. -/
theorem lastStores_canon (s0 : Vec Ideal S512x2112 .f32) (s1 : Vec Ideal S512x128 .f32) (b0 : Vec Ideal S64x1536 .f32)
    (b1 : Vec Ideal S64x576 .f32) : View.canon (Pieces.lastStores s0 s1 b0 b1) = outBlock s0 s1 b0 b1 := by
  funext y
  refine View.canon_apply_of_pieces (Val := Elt Ideal) (e := EltTy.f32) (outBlock s0 s1 b0 b1) _ ?_ y ?_
  · intro p hp x
    unfold Pieces.lastStores at hp
    simp only [List.mem_cons, List.not_mem_nil, or_false] at hp
    rcases hp with rfl | rfl
    · obtain ⟨r, o, rfl⟩ : ∃ (r : Fin 512) (o : Fin 576), x = ix2 r o := ⟨x 0, x 1, eq_ix2 x⟩
      refine (PayRead.highPiece_apply s1 b1 _ r o).trans ?_
      refine (outBlock_hi s0 s1 b0 b1 _ r o ?_ ?_).symm
      · show 0 + 1 * r.val = r.val; omega
      · show 1536 + 1 * o.val = 1536 + o.val; omega
    · obtain ⟨r, o, rfl⟩ : ∃ (r : Fin 512) (o : Fin 1536), x = ix2 r o := ⟨x 0, x 1, eq_ix2 x⟩
      refine (PayRead.lowPiece_apply s1 b0 _ r o).trans ?_
      refine (outBlock_lo s0 s1 b0 b1 _ r o ?_ ?_).symm
      · show 0 + 1 * r.val = r.val; omega
      · show 0 + 1 * o.val = o.val; omega
  · have h0 : (y 0).val < 512 := (y 0).isLt
    have h1 : (y 1).val < 2112 := (y 1).isLt
    unfold Pieces.lastStores
    by_cases hlt : (y 1).val < 1536
    · refine ⟨_, List.mem_cons_of_mem _ (List.mem_singleton_self _), ?_⟩
      rw [Rect.mem_set_unit]
      intro a
      match a with
      | ⟨0, _⟩ => show 0 ≤ (y 0).val ∧ (y 0).val < 0 + 512; omega
      | ⟨1, _⟩ => show 0 ≤ (y 1).val ∧ (y 1).val < 0 + 1536; omega
    · refine ⟨_, List.mem_cons_self .., ?_⟩
      rw [Rect.mem_set_unit]
      intro a
      match a with
      | ⟨0, _⟩ => show 0 ≤ (y 0).val ∧ (y 0).val < 0 + 512; omega
      | ⟨1, _⟩ => show 1536 ≤ (y 1).val ∧ (y 1).val < 1536 + 576; omega

/-- At a row block's last point the output buffer holds that block, made from the two sums as this point leaves
    them and from the two factors. -/
theorem out_block (c : Dev nD) (t : Fin cfg0.N) (h13 : t.val % 14 = 13) :
    (outsAt0 m c t.val t.isLt).1
      = outBlock (outsAt0 m c t.val t.isLt).2.1 (outsAt0 m c t.val t.isLt).2.2 (iblk m c 4 t) (iblk m c 5 t) := by
  have h0 : ¬t.val % 14 = 0 := by omega
  rw [outsAt0_C m c t h0 h13]
  dsimp only
  rw [Pieces.last_out, Pieces.last_wide, Pieces.last_narrow]
  exact lastStores_canon _ _ _ _

/-! ## The output block's entries, from the arguments -/

theorem out_entry_lo (c : Dev nD) (t : Fin cfg0.N) (h13 : t.val % 14 = 13) (r : Fin 512) (o : Fin 2112) (o' : Fin 1536)
    (ho : o.val = o'.val) (S : Fin 8192) (hS : S.val = 512 * (t.val / 14) + r.val) :
    (outsAt0 m c t.val t.isLt).1 (ix2 r o)
      = (argBias m c (ix1 o) + Cert.LoraSpec.mainDot (argX m c) (argW m c) S o)
        + Cert.LoraSpec.corrLo (argX m c) (argA m c) (argB m c) S o' := by
  rw [out_block m c t h13, outBlock_lo _ _ _ _ (ix2 r o) r o' rfl ho, wide_total m c t h13 r o S hS]
  refine congrArg ((argBias m c (ix1 o) + Cert.LoraSpec.mainDot (argX m c) (argW m c) S o) + ·) ?_
  unfold Cert.LoraSpec.corrLo
  refine Finset.sum_congr rfl fun q _ => ?_
  rw [narrow_total m c t h13 r _ S hS, Blocks.b0_at m c t q o']

theorem out_entry_hi (c : Dev nD) (t : Fin cfg0.N) (h13 : t.val % 14 = 13) (r : Fin 512) (o : Fin 2112) (o' : Fin 576)
    (ho : o.val = 1536 + o'.val) (S : Fin 8192) (hS : S.val = 512 * (t.val / 14) + r.val) :
    (outsAt0 m c t.val t.isLt).1 (ix2 r o)
      = (argBias m c (ix1 o) + Cert.LoraSpec.mainDot (argX m c) (argW m c) S o)
        + Cert.LoraSpec.corrHi (argX m c) (argA m c) (argB m c) S o' := by
  rw [out_block m c t h13, outBlock_hi _ _ _ _ (ix2 r o) r o' rfl ho, wide_total m c t h13 r o S hS]
  refine congrArg ((argBias m c (ix1 o) + Cert.LoraSpec.mainDot (argX m c) (argW m c) S o) + ·) ?_
  unfold Cert.LoraSpec.corrHi
  refine Finset.sum_congr rfl fun q _ => ?_
  rw [narrow_total m c t h13 r _ S hS, Blocks.b1_at m c t q o']

end Cert.KernelIdeal.Fold

end
-- ==== Proof.Final.lean ====
/-
  The result array after the run.

  The output block of row block i is written back once, after the row block's last reduction step, and the sixteen
  row blocks tile the [8192, 2112] array.  Entry (r, o) of the block written back for row block i is the
  specification's result at (512 i + r, o): the kernel adds  bias + main product  where the specification has
  main product + bias,  and addition on the extended reals commutes.
-/
import proofs.«139467_j79800492359938_2_alg».proof.Proof.Fold

noncomputable section

namespace Cert.KernelIdeal.Final

open Cert.KernelIdeal Cert.KernelIdeal.Gen Idealize.ShloMosaic Idealize.ShloMosaic.TcCoe Idealize.SL.Sem
open Idealize.ShloMosaic.ValueIdx Cert.KernelIdeal.Fold
open Idealize.ShloMosaic.Pipeline (Dat)

variable (m : (ℓ : Loc nD τ sig) → Buf (Elt Ideal) ℓ) (ρ : Dev nD → PrngReg)

/-- What the result array ends holding: the specification's function of the five arguments as launched. -/
abbrev result (c : Dev nD) : Buf (Elt Ideal) ((c : Thread nD τ).loc main_v9) :=
  Cert.LoraSpec.result (argX m c) (argW m c) (argBias m c) (argA m c) (argB m c)

/-- An entry of the block a row block's last point leaves is the specification's entry at the matching row. -/
theorem block_entry (c : Dev nD) (t : Fin cfg0.N) (h13 : t.val % 14 = 13) (y : S512x2112.Idx) (i : S8192x2112.Idx)
    (h0 : (i 0).val = 512 * (t.val / 14) + (y 0).val) (h1 : (i 1).val = (y 1).val) :
    (outsAt0 m c t.val t.isLt).1 y
      = Cert.LoraSpec.result (argX m c) (argW m c) (argBias m c) (argA m c) (argB m c) i := by
  obtain ⟨r, o, rfl⟩ : ∃ (r : Fin 512) (o : Fin 2112), y = ix2 r o := ⟨y 0, y 1, eq_ix2 y⟩
  obtain ⟨S, O, rfl⟩ : ∃ (S : Fin 8192) (O : Fin 2112), i = ix2 S O := ⟨i 0, i 1, eq_ix2 i⟩
  have hS : S.val = 512 * (t.val / 14) + r.val := h0
  obtain rfl : O = o := Fin.ext h1
  have ho := O.isLt
  by_cases hlt : O.val < 1536
  · rw [Fold.out_entry_lo m c t h13 r O ⟨O.val, hlt⟩ rfl S hS,
      Cert.LoraSpec.result_lo _ _ _ _ _ S O ⟨O.val, hlt⟩ rfl, add_comm (argBias m c (ix1 O))]
  · rw [Fold.out_entry_hi m c t h13 r O ⟨O.val - 1536, by omega⟩ (by show O.val = 1536 + (O.val - 1536); omega) S hS,
      Cert.LoraSpec.result_hi _ _ _ _ _ S O ⟨O.val - 1536, by omega⟩ (by show O.val = 1536 + (O.val - 1536); omega),
      add_comm (argBias m c (ix1 O))]

/-- What a write-back writes is its block of the result. -/
theorem flushed_eq (c : Dev nD) (t : Fin cfg0.N) (hf : (cfg0.win 6).flush t = true) :
    (dats m 0 c).flushed 6 t = ((cfg0.win 6).blk t).view.read (Elt Ideal) (result m c) := by
  have h13 : t.val % 14 = 13 := (flush0_6 t).mp hf
  have hi := Blocks.outIndex t
  rw [Value.flushed6]
  funext y
  show (outsAt0 m c t.val t.isLt).1 y = result m c (((cfg0.win 6).blk t).view.emb y)
  refine block_entry m c t h13 y _ ?_ ?_
  · show win0_6.index t (0 : Fin 2) * 512 + 1 * (y 0).val = 512 * (t.val / 14) + (y 0).val
    rw [hi.1]; omega
  · show win0_6.index t (1 : Fin 2) * 2112 + 1 * (y 1).val = (y 1).val
    rw [hi.2]; omega

/-- Every entry of the array is in the block some row block's last point writes back. -/
theorem cover (i : S8192x2112.Idx) :
    ∃ t : Fin cfg0.N, (cfg0.win 6).flush t = true ∧ i ∈ ((cfg0.win 6).blk t).view.set := by
  have hN : cfg0.N = 224 := N_0
  have h0 : (i 0).val < 8192 := (i 0).isLt
  have h1 : (i 1).val < 2112 := (i 1).isLt
  have hq : 14 * ((i 0).val / 512) + 13 < cfg0.N := by omega
  refine ⟨⟨14 * ((i 0).val / 512) + 13, hq⟩, (flush0_6 _).mpr (by show (14 * ((i 0).val / 512) + 13) % 14 = 13; omega), ?_⟩
  have hi := Blocks.outIndex ⟨14 * ((i 0).val / 512) + 13, hq⟩
  have hd : (14 * ((i 0).val / 512) + 13) / 14 = (i 0).val / 512 := by omega
  show i ∈ ((View.whole main_v9).slice (win0_6.rect ⟨14 * ((i 0).val / 512) + 13, hq⟩)).set
  rw [View.set_slice_whole, Rect.mem_set_unit]
  intro a
  match a with
  | ⟨0, _⟩ =>
    show win0_6.index ⟨14 * ((i 0).val / 512) + 13, hq⟩ (0 : Fin 2) * 512 ≤ (i 0).val
      ∧ (i 0).val < win0_6.index ⟨14 * ((i 0).val / 512) + 13, hq⟩ (0 : Fin 2) * 512 + 512
    rw [hi.1]
    show (14 * ((i 0).val / 512) + 13) / 14 * 512 ≤ (i 0).val ∧ (i 0).val < (14 * ((i 0).val / 512) + 13) / 14 * 512 + 512
    rw [hd]; omega
  | ⟨1, _⟩ =>
    show win0_6.index ⟨14 * ((i 0).val / 512) + 13, hq⟩ (1 : Fin 2) * 2112 ≤ (i 1).val
      ∧ (i 1).val < win0_6.index ⟨14 * ((i 0).val / 512) + 13, hq⟩ (1 : Fin 2) * 2112 + 2112
    rw [hi.2]; omega

/-- So the result array ends holding the specification's function of the arguments. -/
theorem final (c : Dev nD) : (dats m 0 c).arrAt 6 cfg0.N = result m c :=
  (dats m 0 c).arrAt_eq_of_cover 6 (result m c) (flushed_eq m c) cover

/-- The run, read: the result array at the specification's function of the arguments, the arguments unchanged. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Final

end
-- ==== Proof.LibScatterAt.lean ====
/-
  A host scatter read at one index of its result.

  The host's `scatter` is a left fold over all the update indices, in row-major order: each update index `j` has
  a landing place `d.resultIdx? j idx` in the operand (or none, when its window leaves the operand), and the step
  for `j` replaces the element there by the body `f` applied to it and to the update's element at `j`.
  When distinct update indices never land on the same place, the element of the result at a place `i` has met
  at most one step:
    * `Host.scatter_apply_of_miss`: no update index lands on `i`  ⟹  the result at `i` is the operand's element;
    * `Host.scatter_apply_of_hit`:  `j₀` lands on `i`             ⟹  the result at `i` is `f (x i) (upd j₀)`.
  Both hold for any body `f` and any element type; nothing is evaluated, so the number of update indices is
  irrelevant. The first needs no injectivity. `ScatterDims.resultIdx?_val` reads a landing place coordinate by
  coordinate (start plus window coordinate), which is how the two hypotheses are met for given dimension numbers.
-/
import Idealize.ShloMosaic.PureOps.ShapeOps

namespace Idealize.ShloMosaic

section ScatterAt
variable {s si u : Shape} {α : Type} {w : Nat}

/-- The step of `Host.scatter`'s fold at the update index of row-major position `n`. -/
def Host.scatterStep (d : ScatterDims s si u) (f : α → α → α) (idx : IVec si w) (upd : u.Idx → α)
    (r : s.Idx → α) (n : Fin u.numel) : s.Idx → α :=
  match d.resultIdx? (u.rowMajor.symm n) idx with
  | some i => fun i' => if i' = i then f (r i) (upd (u.rowMajor.symm n)) else r i'
  | none => r

/-- `Host.scatter` is the fold of that step over all positions. -/
theorem Host.scatter_eq_foldl (d : ScatterDims s si u) (f : α → α → α) (x : s.Idx → α) (idx : IVec si w) (upd : u.Idx → α) :
    Host.scatter d f x idx upd = (List.finRange u.numel).foldl (Host.scatterStep d f idx upd) x := rfl

/-- A step whose update index lands elsewhere (or nowhere) leaves the element at `i` alone. -/
theorem Host.scatterStep_apply_of_ne (d : ScatterDims s si u) (f : α → α → α) (idx : IVec si w) (upd : u.Idx → α)
    (r : s.Idx → α) (n : Fin u.numel) (i : s.Idx) (h : d.resultIdx? (u.rowMajor.symm n) idx ≠ some i) :
    Host.scatterStep d f idx upd r n i = r i := by
  unfold Host.scatterStep
  generalize d.resultIdx? (u.rowMajor.symm n) idx = o at h ⊢
  cases o with
  | none => rfl
  | some k => exact if_neg fun e => h (congrArg some e.symm)

/-- A step whose update index lands on `i` applies the body there. -/
theorem Host.scatterStep_apply_of_eq (d : ScatterDims s si u) (f : α → α → α) (idx : IVec si w) (upd : u.Idx → α)
    (r : s.Idx → α) (n : Fin u.numel) (i : s.Idx) (h : d.resultIdx? (u.rowMajor.symm n) idx = some i) :
    Host.scatterStep d f idx upd r n i = f (r i) (upd (u.rowMajor.symm n)) := by
  unfold Host.scatterStep
  generalize d.resultIdx? (u.rowMajor.symm n) idx = o at h ⊢
  cases o with
  | none => exact absurd h (by simp)
  | some k =>
    have e : k = i := Option.some.inj h
    subst e
    exact if_pos rfl

/-- A run of steps none of which lands on `i` leaves the element at `i` alone. -/
theorem Host.foldl_scatterStep_apply_of_miss (d : ScatterDims s si u) (f : α → α → α) (idx : IVec si w) (upd : u.Idx → α)
    (i : s.Idx) : ∀ (l : List (Fin u.numel)) (r : s.Idx → α),
      (∀ n ∈ l, d.resultIdx? (u.rowMajor.symm n) idx ≠ some i) → l.foldl (Host.scatterStep d f idx upd) r i = r i
  | [], _, _ => rfl
  | a :: l, r, h => by
    rw [List.foldl_cons, Host.foldl_scatterStep_apply_of_miss d f idx upd i l _ fun n hn => h n (List.mem_cons_of_mem _ hn)]
    exact Host.scatterStep_apply_of_ne d f idx upd r a i (h a (List.mem_cons_self ..))

/-- NO UPDATE INDEX LANDS ON `i`: the scatter's result there is the operand's element. -/
theorem Host.scatter_apply_of_miss (d : ScatterDims s si u) (f : α → α → α) (x : s.Idx → α) (idx : IVec si w) (upd : u.Idx → α)
    (i : s.Idx) (h : ∀ j : u.Idx, d.resultIdx? j idx ≠ some i) : Host.scatter d f x idx upd i = x i := by
  rw [Host.scatter_eq_foldl]
  exact Host.foldl_scatterStep_apply_of_miss d f idx upd i _ x fun n _ => h _

/-- A run of steps over distinct positions, one of which is the position of `j₀`, which lands on `i` and is the
    only update index to do so: the element at `i` has met the body once, with the update's element at `j₀`. -/
theorem Host.foldl_scatterStep_apply_of_hit (d : ScatterDims s si u) (f : α → α → α) (idx : IVec si w) (upd : u.Idx → α)
    (i : s.Idx) (j₀ : u.Idx) (h₀ : d.resultIdx? j₀ idx = some i)
    (huniq : ∀ j : u.Idx, d.resultIdx? j idx = some i → j = j₀) :
    ∀ (l : List (Fin u.numel)) (r : s.Idx → α), l.Nodup → u.rowMajor j₀ ∈ l →
      l.foldl (Host.scatterStep d f idx upd) r i = f (r i) (upd j₀)
  | [], _, _, hm => absurd hm (List.not_mem_nil)
  | a :: l, r, hnd, hm => by
    have hal : a ∉ l := (List.nodup_cons.1 hnd).1
    have hl : l.Nodup := (List.nodup_cons.1 hnd).2
    rw [List.foldl_cons]
    by_cases ha : a = u.rowMajor j₀
    · -- this step is the one; none after it lands on `i`
      have hrest : ∀ n ∈ l, d.resultIdx? (u.rowMajor.symm n) idx ≠ some i := fun n hn hk => by
        have : n = u.rowMajor j₀ := by rw [← huniq _ hk, Equiv.apply_symm_apply]
        exact hal (ha ▸ this ▸ hn)
      rw [Host.foldl_scatterStep_apply_of_miss d f idx upd i l _ hrest]
      have hj : u.rowMajor.symm a = j₀ := by rw [ha, Equiv.symm_apply_apply]
      rw [Host.scatterStep_apply_of_eq d f idx upd r a i (hj ▸ h₀), hj]
    · -- this step lands elsewhere; the one comes later
      have hm' : u.rowMajor j₀ ∈ l := by
        rcases List.mem_cons.1 hm with h | h
        · exact absurd h.symm ha
        · exact h
      have hne : d.resultIdx? (u.rowMajor.symm a) idx ≠ some i := fun hk =>
        ha (by rw [← huniq _ hk, Equiv.apply_symm_apply])
      rw [Host.foldl_scatterStep_apply_of_hit d f idx upd i j₀ h₀ huniq l _ hl hm',
        Host.scatterStep_apply_of_ne d f idx upd r a i hne]

/-- THE UPDATE INDEX `j₀`, AND NO OTHER, LANDS ON `i`: the scatter's result there is the body applied to the
    operand's element and the update's element at `j₀`. -/
theorem Host.scatter_apply_of_hit (d : ScatterDims s si u) (f : α → α → α) (x : s.Idx → α) (idx : IVec si w) (upd : u.Idx → α)
    (i : s.Idx) (j₀ : u.Idx) (h₀ : d.resultIdx? j₀ idx = some i)
    (huniq : ∀ j : u.Idx, d.resultIdx? j idx = some i → j = j₀) :
    Host.scatter d f x idx upd i = f (x i) (upd j₀) := by
  rw [Host.scatter_eq_foldl]
  exact Host.foldl_scatterStep_apply_of_hit d f idx upd i j₀ h₀ huniq _ x (List.nodup_finRange _) (List.mem_finRange _)

/-- WHERE AN UPDATE INDEX LANDS, coordinate by coordinate: the window's start on the axis plus the update's window
    coordinate there (as integers: the start is read signed). -/
theorem ScatterDims.resultIdx?_val (d : ScatterDims s si u) {j : u.Idx} {idx : IVec si w} {k : s.Idx}
    (h : d.resultIdx? j idx = some k) (a : Fin s.rank) :
    ((k a).val : ℤ) = d.start j idx a + (d.window j a : ℤ) := by
  unfold ScatterDims.resultIdx? at h
  by_cases hb : ∀ a, 0 ≤ d.start j idx a + d.window j a ∧ d.start j idx a + d.window j a < s.size a
  · rw [dif_pos hb] at h
    have e := Option.some.inj h
    subst e
    exact Int.toNat_of_nonneg (hb a).1
  · rw [dif_neg hb] at h
    exact absurd h (by simp)

end ScatterAt

end Idealize.ShloMosaic
-- ==== Proof.LibScatterLand.lean ====
/-
  Where a host scatter's update index lands, as one equation per axis.

  An update index lands on an operand index exactly when, on every axis, the operand coordinate is the window's
  start on that axis plus the update's window coordinate there (as integers: the start is read signed).  This is the
  form in which a landing place is both exhibited (for the index that hits) and refuted (for an index that cannot).
-/
import proofs.«139467_j79800492359938_2_alg».proof.Proof.LibScatterAt

namespace Idealize.ShloMosaic

/-- An update index `j` lands on `i` iff on every axis `i`'s coordinate is the start plus the window coordinate. -/
theorem ScatterDims.resultIdx?_eq_some_iff {s si u : Shape} (d : ScatterDims s si u) {w : Nat} (j : u.Idx)
    (idx : IVec si w) (i : s.Idx) :
    d.resultIdx? j idx = some i ↔ ∀ a, ((i a).val : ℤ) = d.start j idx a + (d.window j a : ℤ) := by
  constructor
  · intro h a; exact ScatterDims.resultIdx?_val d h a
  · intro h
    have hb : ∀ a, 0 ≤ d.start j idx a + d.window j a ∧ d.start j idx a + d.window j a < s.size a := fun a => by
      rw [← h a]; exact ⟨Int.natCast_nonneg _, by exact_mod_cast (i a).isLt⟩
    unfold ScatterDims.resultIdx?
    rw [dif_pos hb]
    congr 1
    funext a
    apply Fin.ext
    show (d.start j idx a + d.window j a).toNat = (i a).val
    rw [← h a]
    exact Int.toNat_natCast _

end Idealize.ShloMosaic
-- ==== Proof.RefRead.lean ====
/-
  The reference's result is the specification's function of the five arguments.

  The reference computes  base = x · Wᵀ + bias  and  low = x · Aᵀ  whole, then adds into base, through two scatters
  of one window each, the product of low's first 64 columns with B(0, ·, ·) at columns [0, 1536) and the product of
  low's last 64 columns with the first 576 rows of B(1, ·, ·) at columns [1536, 2112).  A scatter of one window whose
  start column is a constant lands update entry (s, c) on (s, start + c) and nowhere else; so an entry of the result
  in the first column range met the first scatter only, once, and an entry in the second range met the second only.
-/
import proofs.«139467_j79800492359938_2_alg».proof.Proof.Gen.ReferenceIdeal.Read
import proofs.«139467_j79800492359938_2_alg».proof.Proof.LibScatterAt
import proofs.«139467_j79800492359938_2_alg».proof.Proof.LibScatterLand
import proofs.«139467_j79800492359938_2_alg».proof.Proof.Spec
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-! ## Where the two scatters land -/

theorem start0_a (j : S8192x1536.Idx) (idx : IVec S1 32) : scatter_S8192x2112_S1_S8192x1536_01_n_1_0.start j idx 0 = 0 := by
  unfold ScatterDims.start
  rw [dif_neg (by decide)]

theorem start1_a (j : S8192x1536.Idx) (idx : IVec S1 32) (v : BitVec 32) (h : ∀ k, idx k = v) :
    scatter_S8192x2112_S1_S8192x1536_01_n_1_0.start j idx 1 = v.toInt := by
  unfold ScatterDims.start
  rw [dif_pos (by decide), h]

theorem window0_a (j : S8192x1536.Idx) : scatter_S8192x2112_S1_S8192x1536_01_n_1_0.window j 0 = (j 0).val := by
  unfold ScatterDims.window
  rw [dif_pos (by decide)]
  rfl

theorem window1_a (j : S8192x1536.Idx) : scatter_S8192x2112_S1_S8192x1536_01_n_1_0.window j 1 = (j 1).val := by
  unfold ScatterDims.window
  rw [dif_pos (by decide)]
  rfl

/-- Update index (s', c) lands on (s, o) iff s = s' and o is the start column plus c. -/
theorem land_a (idx : IVec S1 32) (v : BitVec 32) (hidx : ∀ k, idx k = v) (j : S8192x1536.Idx) (i : S8192x2112.Idx) :
    scatter_S8192x2112_S1_S8192x1536_01_n_1_0.resultIdx? j idx = some i
      ↔ ((i 0).val : ℤ) = (j 0).val ∧ ((i 1).val : ℤ) = v.toInt + (j 1).val := by
  rw [ScatterDims.resultIdx?_eq_some_iff]
  constructor
  · intro h
    have h0 : ((i 0).val : ℤ) = scatter_S8192x2112_S1_S8192x1536_01_n_1_0.start j idx 0 + (scatter_S8192x2112_S1_S8192x1536_01_n_1_0.window j 0 : ℤ) := h 0
    have h1 : ((i 1).val : ℤ) = scatter_S8192x2112_S1_S8192x1536_01_n_1_0.start j idx 1 + (scatter_S8192x2112_S1_S8192x1536_01_n_1_0.window j 1 : ℤ) := h 1
    rw [start0_a, window0_a] at h0
    rw [start1_a j idx v hidx, window1_a] at h1
    exact ⟨by omega, h1⟩
  · rintro ⟨h0, h1⟩ a
    match a with
    | ⟨0, _⟩ =>
      show ((i 0).val : ℤ) = scatter_S8192x2112_S1_S8192x1536_01_n_1_0.start j idx 0 + (scatter_S8192x2112_S1_S8192x1536_01_n_1_0.window j 0 : ℤ)
      rw [start0_a, window0_a]; omega
    | ⟨1, _⟩ =>
      show ((i 1).val : ℤ) = scatter_S8192x2112_S1_S8192x1536_01_n_1_0.start j idx 1 + (scatter_S8192x2112_S1_S8192x1536_01_n_1_0.window j 1 : ℤ)
      rw [start1_a j idx v hidx, window1_a]; exact h1

theorem start0_b (j : S8192x576.Idx) (idx : IVec S1 32) : scatter_S8192x2112_S1_S8192x576_01_n_1_0.start j idx 0 = 0 := by
  unfold ScatterDims.start
  rw [dif_neg (by decide)]

theorem start1_b (j : S8192x576.Idx) (idx : IVec S1 32) (v : BitVec 32) (h : ∀ k, idx k = v) :
    scatter_S8192x2112_S1_S8192x576_01_n_1_0.start j idx 1 = v.toInt := by
  unfold ScatterDims.start
  rw [dif_pos (by decide), h]

theorem window0_b (j : S8192x576.Idx) : scatter_S8192x2112_S1_S8192x576_01_n_1_0.window j 0 = (j 0).val := by
  unfold ScatterDims.window
  rw [dif_pos (by decide)]
  rfl

theorem window1_b (j : S8192x576.Idx) : scatter_S8192x2112_S1_S8192x576_01_n_1_0.window j 1 = (j 1).val := by
  unfold ScatterDims.window
  rw [dif_pos (by decide)]
  rfl

/-- Update index (s', c) lands on (s, o) iff s = s' and o is the start column plus c. -/
theorem land_b (idx : IVec S1 32) (v : BitVec 32) (hidx : ∀ k, idx k = v) (j : S8192x576.Idx) (i : S8192x2112.Idx) :
    scatter_S8192x2112_S1_S8192x576_01_n_1_0.resultIdx? j idx = some i
      ↔ ((i 0).val : ℤ) = (j 0).val ∧ ((i 1).val : ℤ) = v.toInt + (j 1).val := by
  rw [ScatterDims.resultIdx?_eq_some_iff]
  constructor
  · intro h
    have h0 : ((i 0).val : ℤ) = scatter_S8192x2112_S1_S8192x576_01_n_1_0.start j idx 0 + (scatter_S8192x2112_S1_S8192x576_01_n_1_0.window j 0 : ℤ) := h 0
    have h1 : ((i 1).val : ℤ) = scatter_S8192x2112_S1_S8192x576_01_n_1_0.start j idx 1 + (scatter_S8192x2112_S1_S8192x576_01_n_1_0.window j 1 : ℤ) := h 1
    rw [start0_b, window0_b] at h0
    rw [start1_b j idx v hidx, window1_b] at h1
    exact ⟨by omega, h1⟩
  · rintro ⟨h0, h1⟩ a
    match a with
    | ⟨0, _⟩ =>
      show ((i 0).val : ℤ) = scatter_S8192x2112_S1_S8192x576_01_n_1_0.start j idx 0 + (scatter_S8192x2112_S1_S8192x576_01_n_1_0.window j 0 : ℤ)
      rw [start0_b, window0_b]; omega
    | ⟨1, _⟩ =>
      show ((i 1).val : ℤ) = scatter_S8192x2112_S1_S8192x576_01_n_1_0.start j idx 1 + (scatter_S8192x2112_S1_S8192x576_01_n_1_0.window j 1 : ℤ)
      rw [start1_b j idx v hidx, window1_b]; exact h1

/-- The first scatter's start column is 0, -/
theorem idx_a (k : S1.Idx) : val_main_v9 (F := Ideal) k = 0#32 := (val_main_v9_apply k).trans (val_main_c_apply _)
/-- the second's 1536. -/
theorem idx_b (k : S1.Idx) : val_main_v15 (F := Ideal) k = 1536#32 := (val_main_v15_apply k).trans (val_main_c_0_apply _)

theorem toInt_a : (0#32 : BitVec 32).toInt = 0 := by decide
theorem toInt_b : (1536#32 : BitVec 32).toInt = 1536 := by decide

/-! ## The stages, entry by entry -/

section Stages

variable (x0 : (⟨S8192x7168, .f32⟩ : BufTy).Contents (Elt Ideal)) (x1 : (⟨S2112x7168, .f32⟩ : BufTy).Contents (Elt Ideal)) (x2 : (⟨S2112, .f32⟩ : BufTy).Contents (Elt Ideal)) (x3 : (⟨S128x7168, .f32⟩ : BufTy).Contents (Elt Ideal)) (x4 : (⟨S2x1536x64, .f32⟩ : BufTy).Contents (Elt Ideal))

/-- The base: the main product plus the bias. -/
theorem base_at (s : Fin 8192) (o : Fin 2112) :
    val_main_v3 (F := Ideal) x0 x1 x2 (ix2 s o) = Cert.LoraSpec.mainDot x0 x1 s o + x2 (ix1 o) := by
  have el : ∀ k, lidx_main_v0 (ix2 s o) k = ix2 s k := fun k => funext fun a => Fin.ext (by match a with | ⟨0, _⟩ => rfl | ⟨1, _⟩ => rfl)
  have er : ∀ k, ridx_main_v0 (ix2 s o) k = ix2 o k := fun k => funext fun a => Fin.ext (by match a with | ⟨0, _⟩ => rfl | ⟨1, _⟩ => rfl)
  have eb : idx_main_v1 (idx_main_v2 (ix2 s o)) = ix1 o := funext fun a => Fin.ext (by match a with | ⟨0, _⟩ => rfl)
  rw [val_main_v3_apply, val_main_v0_apply, val_main_v2_apply, val_main_v1_apply, eb]
  simp only [el, er]
  rfl

/-- The low-rank projection. -/
theorem low_at (s : Fin 8192) (j : Fin 128) :
    val_main_v4 (F := Ideal) x0 x3 (ix2 s j) = Cert.LoraSpec.low x0 x3 s j := by
  have el : ∀ k, lidx_main_v4 (ix2 s j) k = ix2 s k := fun k => funext fun a => Fin.ext (by match a with | ⟨0, _⟩ => rfl | ⟨1, _⟩ => rfl)
  have er : ∀ k, ridx_main_v4 (ix2 s j) k = ix2 j k := fun k => funext fun a => Fin.ext (by match a with | ⟨0, _⟩ => rfl | ⟨1, _⟩ => rfl)
  rw [val_main_v4_apply]
  simp only [el, er]
  rfl

/-- The first slice's update: the correction of a column of the first slice. -/
theorem updA_at (s : Fin 8192) (o : Fin 1536) :
    val_main_v8 (F := Ideal) x0 x3 x4 (ix2 s o) = Cert.LoraSpec.corrLo x0 x3 x4 s o := by
  rw [val_main_v8_apply]
  unfold Cert.LoraSpec.corrLo
  refine Finset.sum_congr rfl fun q _ => ?_
  have e5 : idx_main_v5 (lidx_main_v8 (ix2 s o) q) = ix2 s (⟨q.val, by omega⟩ : Fin 128) :=
    funext fun a => Fin.ext (by match a with | ⟨0, _⟩ => rfl | ⟨1, _⟩ => rfl)
  have e7 : idx_main_v6 (idx_main_v7 (ridx_main_v8 (ix2 s o) q)) = ix3 (0 : Fin 2) o q :=
    funext fun a => Fin.ext (by
      have ho := o.isLt; have hq := q.isLt
      match a with
      | ⟨0, _⟩ => rfl
      | ⟨1, _⟩ => show (o.val * 64 + q.val) / 64 % 1536 = o.val; omega
      | ⟨2, _⟩ => show (o.val * 64 + q.val) % 64 = q.val; omega)
  rw [val_main_v5_apply, val_main_v7_apply, val_main_v6_apply, e5, e7, low_at]

/-- The second slice's update: the correction of a column of the second slice. -/
theorem updB_at (s : Fin 8192) (o : Fin 576) :
    val_main_v14 (F := Ideal) x0 x3 x4 (ix2 s o) = Cert.LoraSpec.corrHi x0 x3 x4 s o := by
  rw [val_main_v14_apply]
  unfold Cert.LoraSpec.corrHi
  refine Finset.sum_congr rfl fun q _ => ?_
  have e11 : idx_main_v11 (lidx_main_v14 (ix2 s o) q) = ix2 s (⟨64 + q.val, by omega⟩ : Fin 128) :=
    funext fun a => Fin.ext (by match a with | ⟨0, _⟩ => rfl | ⟨1, _⟩ => rfl)
  have e13 : idx_main_v12 (idx_main_v13 (ridx_main_v14 (ix2 s o) q)) = ix3 (1 : Fin 2) (⟨o.val, by omega⟩ : Fin 1536) q :=
    funext fun a => Fin.ext (by
      have ho := o.isLt; have hq := q.isLt
      match a with
      | ⟨0, _⟩ => rfl
      | ⟨1, _⟩ => show (o.val * 64 + q.val) / 64 % 576 = o.val; omega
      | ⟨2, _⟩ => show (o.val * 64 + q.val) % 64 = q.val; omega)
  rw [val_main_v11_apply, val_main_v13_apply, val_main_v12_apply, e11, e13, low_at]

/-! ## The two scatters -/

/-- After the first scatter, a column of the first slice holds the base plus its correction … -/
theorem afterA_lo (s : Fin 8192) (o : Fin 2112) (o' : Fin 1536) (h : o.val = o'.val) :
    val_main_v10 (F := Ideal) x0 x1 x2 x3 x4 (ix2 s o)
      = (Cert.LoraSpec.mainDot x0 x1 s o + x2 (ix1 o)) + Cert.LoraSpec.corrLo x0 x3 x4 s o' := by
  unfold val_main_v10
  rw [Host.scatter_apply_of_hit _ _ _ _ _ (ix2 s o) (ix2 s o')
    ((land_a _ 0#32 idx_a _ _).mpr ⟨rfl, by rw [toInt_a]; show ((o.val : ℕ) : ℤ) = 0 + (o'.val : ℕ); omega⟩)
    (fun j hj => by
      obtain ⟨h0, h1⟩ := (land_a _ 0#32 idx_a _ _).mp hj
      rw [toInt_a] at h1
      have h0' : (s.val : ℤ) = (j 0).val := h0
      have h1' : (o.val : ℤ) = 0 + (j 1).val := h1
      funext a
      apply Fin.ext
      match a with
      | ⟨0, _⟩ => show (j 0).val = s.val; omega
      | ⟨1, _⟩ => show (j 1).val = o'.val; omega)]
  rw [base_at, updA_at]
  rfl

/-- … and a column of the second slice still holds the base. -/
theorem afterA_hi (s : Fin 8192) (o : Fin 2112) (h : 1536 ≤ o.val) :
    val_main_v10 (F := Ideal) x0 x1 x2 x3 x4 (ix2 s o) = Cert.LoraSpec.mainDot x0 x1 s o + x2 (ix1 o) := by
  unfold val_main_v10
  rw [Host.scatter_apply_of_miss _ _ _ _ _ (ix2 s o) (fun j hj => by
    obtain ⟨h0, h1⟩ := (land_a _ 0#32 idx_a _ _).mp hj
    rw [toInt_a] at h1
    have h1' : (o.val : ℤ) = 0 + (j 1).val := h1
    have hj1 : (j 1).val < 1536 := (j 1).isLt
    omega)]
  exact base_at x0 x1 x2 s o

/-- The reference's result is the specification's. -/
theorem result_eq : val_main_v16 (F := Ideal) x0 x1 x2 x3 x4 = Cert.LoraSpec.result x0 x1 x2 x3 x4 := by
  funext i
  obtain ⟨s, o, rfl⟩ : ∃ (s : Fin 8192) (o : Fin 2112), i = ix2 s o := ⟨i 0, i 1, eq_ix2 i⟩
  have ho := o.isLt
  unfold val_main_v16
  by_cases hlt : o.val < 1536
  · rw [Host.scatter_apply_of_miss _ _ _ _ _ (ix2 s o) (fun j hj => by
      obtain ⟨h0, h1⟩ := (land_b _ 1536#32 idx_b _ _).mp hj
      rw [toInt_b] at h1
      have h1' : (o.val : ℤ) = 1536 + (j 1).val := h1
      omega)]
    rw [afterA_lo x0 x1 x2 x3 x4 s o ⟨o.val, hlt⟩ rfl]
    exact (Cert.LoraSpec.result_lo x0 x1 x2 x3 x4 s o ⟨o.val, hlt⟩ rfl).symm
  · have hge : 1536 ≤ o.val := by omega
    rw [Host.scatter_apply_of_hit _ _ _ _ _ (ix2 s o) (ix2 s (⟨o.val - 1536, by omega⟩ : Fin 576))
      ((land_b _ 1536#32 idx_b _ _).mpr ⟨rfl, by rw [toInt_b]; show ((o.val : ℕ) : ℤ) = 1536 + ((o.val - 1536 : ℕ) : ℤ); omega⟩)
      (fun j hj => by
        obtain ⟨h0, h1⟩ := (land_b _ 1536#32 idx_b _ _).mp hj
        rw [toInt_b] at h1
        have h0' : (s.val : ℤ) = (j 0).val := h0
        have h1' : (o.val : ℤ) = 1536 + (j 1).val := h1
        funext a
        apply Fin.ext
        match a with
        | ⟨0, _⟩ => show (j 0).val = s.val; omega
        | ⟨1, _⟩ => show (j 1).val = o.val - 1536; omega)]
    rw [afterA_hi x0 x1 x2 x3 x4 s o hge, updB_at]
    exact (Cert.LoraSpec.result_hi x0 x1 x2 x3 x4 s o ⟨o.val - 1536, by omega⟩ (by show o.val = 1536 + (o.val - 1536); omega)).symm

end Stages

end Cert.ReferenceIdeal.RefValue

end
-- ==== Proof.lean ====
/-
  The certificate's claim for a replicated linear layer with two low-rank corrections:

      out = x · Wᵀ + bias,  plus  (x · A₀ᵀ) · B₀ᵀ  on columns [0, 1536)  and  (x · A₁ᵀ) · B₁ᵀ  on columns [1536, 2112),

  x [8192, 7168], W [2112, 7168], bias [2112], A [128, 7168] the two rank-64 factors A₀, A₁ stacked, B [2, 1536, 64] the two
  output-side factors (of the second, the first 576 rows).

  The kernel walks a 16 × 14 grid: sixteen row blocks of 512 rows, and for each, fourteen blocks of 512 hidden
  coordinates.  Along the fourteen steps it keeps two running sums, bias + x · Wᵀ and x · Aᵀ, each step adding its
  block's products; the last step multiplies the halves of the second sum into the two output-side factors, adds the
  result to the matching columns of the first, and the block is written back.  The reference forms x · Wᵀ + bias and
  x · Aᵀ whole and adds the two corrections through one-window scatters.

  On the extended reals both are, entry by entry, the same sums taken in different groupings and with the bias on
  the other side of one addition: a sum over 7168 coordinates is the sum over fourteen blocks of 512, and addition is
  commutative and associative there, infinities included, so the equality needs no finiteness of the inputs.
  The pieces: what each case of the body leaves (Pieces), the body's arithmetic at an index (PayRead), the blocks as
  entries of the arguments (Blocks), the running sums and the output block (Fold), the result array (Final), the
  reference read as the same function (RefRead) of the specification (Spec).  The three frames are the generated
  ones; the kernel's idealization rewrote nothing, so that conjunct is trivial.
-/
import proofs.«139467_j79800492359938_2_alg».proof.Defs
import proofs.«139467_j79800492359938_2_alg».proof.Proof.Gen.Kernel
import proofs.«139467_j79800492359938_2_alg».proof.Proof.Gen.Kernel.Skeleton
import proofs.«139467_j79800492359938_2_alg».proof.Proof.Gen.Kernel.Launch
import proofs.«139467_j79800492359938_2_alg».proof.Proof.Gen.Kernel.Points
import proofs.«139467_j79800492359938_2_alg».proof.Proof.Gen.Kernel.Frame
import proofs.«139467_j79800492359938_2_alg».proof.Proof.Gen.KernelIdeal
import proofs.«139467_j79800492359938_2_alg».proof.Proof.Gen.KernelIdeal.Skeleton
import proofs.«139467_j79800492359938_2_alg».proof.Proof.Gen.KernelIdeal.Launch
import proofs.«139467_j79800492359938_2_alg».proof.Proof.Gen.KernelIdeal.Points
import proofs.«139467_j79800492359938_2_alg».proof.Proof.Gen.KernelIdeal.Frame
import proofs.«139467_j79800492359938_2_alg».proof.Proof.Gen.ReferenceIdeal
import proofs.«139467_j79800492359938_2_alg».proof.Proof.Gen.Pre_finite_inputs
import proofs.«139467_j79800492359938_2_alg».proof.Proof.Gen.KernelIdeal.Value
import proofs.«139467_j79800492359938_2_alg».proof.Proof.Gen.ReferenceIdeal.Run
import proofs.«139467_j79800492359938_2_alg».proof.Proof.Gen.ReferenceIdeal.Read
import proofs.«139467_j79800492359938_2_alg».proof.Proof.Final
import proofs.«139467_j79800492359938_2_alg».proof.Proof.RefRead
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the kernel's result array ends at the specification's function of its arguments, and
    the reference's result is the same function of arguments that agree. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
